-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x512 : Shape := ⟨3, ![16, 8192, 512]⟩
abbrev S16x8192 : Shape := ⟨2, ![16, 8192]⟩
abbrev S16x128 : Shape := ⟨2, ![16, 128]⟩
abbrev S128x512 : Shape := ⟨2, ![128, 512]⟩
abbrev S128x128 : Shape := ⟨2, ![128, 128]⟩
abbrev S_ : Shape := ⟨0, ![]⟩

class Facts : Prop where
  bcast_S_S16x8192x512 : S_.BroadcastsInDim S16x8192x512 (![] : Fin 0 → Fin S16x8192x512.rank)
  reducesTo_S16x8192x512_S_d0_1_2 : S16x8192x512.ReducesTo [0, 1, 2] S_
  h_S_ : 0 < S_.numel
  bcast_S_S16x128 : S_.BroadcastsInDim S16x128 (![] : Fin 0 → Fin S16x128.rank)
  reducesTo_S16x128_S_d0_1 : S16x128.ReducesTo [0, 1] S_
  bcast_S_S128x512 : S_.BroadcastsInDim S128x512 (![] : Fin 0 → Fin S128x512.rank)
  reducesTo_S128x512_S_d0_1 : S128x512.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S16x8192x512 .f32) (main_arg1 : IVec S16x8192 1) (main_arg2 : FVec F S16x128 .f32) (main_arg3 : FVec F S128x512 .f32) (main_arg4 : FVec F S128x128 .f32) (main_arg5 : FVec F S128x128 .f32) : IVec S_ 1 :=
  let main_v0 : FVec F S16x8192x512 .f32 := Host.absf main_arg0
  let main_cst : FVec F S_ .f32 := constant S_ .f32 0x7F800000#32
  let main_v1 : FVec F S16x8192x512 .f32 := broadcastInDim S16x8192x512 ![] bcast_S_S16x8192x512 main_cst
  let main_v2 : IVec S16x8192x512 1 := cmpf .olt main_v0 main_v1
  let main_c : IVec S_ 1 := constantI S_ 1 1#1
  let main_v3 : IVec S_ 1 := (fun x v => Host.reduce IntOp.andi x v reducesTo_S16x8192x512_S_d0_1_2 h_S_) main_v2 main_c
  let main_v4 : FVec F S16x128 .f32 := Host.absf main_arg2
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128x512 .f32 := Host.absf main_arg3
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S16x8192x512 : Shape := ⟨3, ![16, 8192, 512]⟩
abbrev S16x8192 : Shape := ⟨2, ![16, 8192]⟩
abbrev S16x128 : Shape := ⟨2, ![16, 128]⟩
abbrev S128x512 : Shape := ⟨2, ![128, 512]⟩
abbrev S128x128 : Shape := ⟨2, ![128, 128]⟩
abbrev S131072x512 : Shape := ⟨2, ![131072, 512]⟩
abbrev S128x16 : Shape := ⟨2, ![128, 16]⟩
abbrev S512x128 : Shape := ⟨2, ![512, 128]⟩
abbrev S512x16 : Shape := ⟨2, ![512, 16]⟩
abbrev S131072x128 : Shape := ⟨2, ![131072, 128]⟩
abbrev S16384x128 : Shape := ⟨2, ![16384, 128]⟩
abbrev S4096x512 : Shape := ⟨2, ![4096, 512]⟩
abbrev S4096x128 : Shape := ⟨2, ![4096, 128]⟩
abbrev S4096x16 : Shape := ⟨2, ![4096, 16]⟩
abbrev S4096 : Shape := ⟨1, ![4096]⟩
abbrev S4096x1 : Shape := ⟨2, ![4096, 1]⟩
abbrev S16x8192x128 : Shape := ⟨3, ![16, 8192, 128]⟩
abbrev S131072x16 : Shape := ⟨2, ![131072, 16]⟩
abbrev S16x8192x16 : Shape := ⟨3, ![16, 8192, 16]⟩

abbrev nBuf : Space → Nat
  | .hbm => 17
  | .vmem => 9
  | .smem => 0
  | _ => 0

abbrev bufTy : (tb : Table) → Fin (tcTables nBuf tb) → BufTy
  | .hbm, ⟨0, _⟩ => ⟨S16x8192x512, .f32⟩
  | .hbm, ⟨1, _⟩ => ⟨S16x8192, .i1⟩
  | .hbm, ⟨2, _⟩ => ⟨S16x128, .f32⟩
  | .hbm, ⟨3, _⟩ => ⟨S128x512, .f32⟩
  | .hbm, ⟨4, _⟩ => ⟨S128x128, .f32⟩
  | .hbm, ⟨5, _⟩ => ⟨S128x128, .f32⟩
  | .hbm, ⟨6, _⟩ => ⟨S131072x512, .f32⟩
  | .hbm, ⟨7, _⟩ => ⟨S16x128, .f32⟩
  | .hbm, ⟨8, _⟩ => ⟨S128x16, .f32⟩
  | .hbm, ⟨9, _⟩ => ⟨S512x128, .f32⟩
  | .hbm, ⟨10, _⟩ => ⟨S512x16, .f32⟩
  | .hbm, ⟨11, _⟩ => ⟨S128x128, .f32⟩
  | .hbm, ⟨12, _⟩ => ⟨S131072x128, .f32⟩
  | .hbm, ⟨13, _⟩ => ⟨S16384x128, .f32⟩
  | .hbm, ⟨14, _⟩ => ⟨S16x8192x128, .f32⟩
  | .hbm, ⟨15, _⟩ => ⟨S131072x16, .f32⟩
  | .hbm, ⟨16, _⟩ => ⟨S16x8192x16, .f32⟩
  | .local _ .vmem, ⟨0, _⟩ => ⟨S4096x512, .f32⟩
  | .local _ .vmem, ⟨1, _⟩ => ⟨S4096x512, .f32⟩
  | .local _ .vmem, ⟨2, _⟩ => ⟨S512x16, .f32⟩
  | .local _ .vmem, ⟨3, _⟩ => ⟨S16x128, .f32⟩
  | .local _ .vmem, ⟨4, _⟩ => ⟨S128x128, .f32⟩
  | .local _ .vmem, ⟨5, _⟩ => ⟨S4096x128, .f32⟩
  | .local _ .vmem, ⟨6, _⟩ => ⟨S4096x128, .f32⟩
  | .local _ .vmem, ⟨7, _⟩ => ⟨S512x128, .f32⟩
  | .local _ .vmem, ⟨8, _⟩ => ⟨S512x128, .f32⟩
  | _, _ => ⟨S16x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x8192x512_S131072x512 : S16x8192x512.ShapeCasts S131072x512
  transposes_S16x128_S128x16_1_0 : S16x128.Transposes [1, 0] S128x16
  transposes_S128x512_S512x128_1_0 : S128x512.Transposes [1, 0] S512x128
  transposes_S128x128_S128x128_1_0 : S128x128.Transposes [1, 0] S128x128
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  shapeCasts_S512x16_S512x16 : S512x16.ShapeCasts S512x16
  reduces_S4096x16_S4096 : S4096x16.Reduces [1] S4096
  shapeCasts_S4096_S4096x1 : S4096.ShapeCasts S4096x1
  broadcasts_S4096x1_S4096x16 : S4096x1.Broadcasts S4096x16
  shapeCasts_S4096x16_S512x128 : S4096x16.ShapeCasts S512x128
  inb_S512x128_S512x128_0_0 : ∀ a, (![0, 0] : Fin 2 → Nat) a + S512x128.size a ≤ S512x128.size a
  h_S512x128 : 0 < S512x128.numel
  inb_S16x128_S16x128_0_0 : ∀ a, (![0, 0] : Fin 2 → Nat) a + S16x128.size a ≤ S16x128.size a
  h_S16x128 : 0 < S16x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4096x128_S4096x128_0_0 : ∀ a, (![0, 0] : Fin 2 → Nat) a + S4096x128.size a ≤ S4096x128.size a
  h_S4096x128 : 0 < S4096x128.numel
  shapeCasts_S131072x128_S16x8192x128 : S131072x128.ShapeCasts S16x8192x128
  shapeCasts_S16384x128_S131072x16 : S16384x128.ShapeCasts S131072x16
  shapeCasts_S131072x16_S16x8192x16 : S131072x16.ShapeCasts S16x8192x16
  dot_S16x128_S128x128_S16x128_1_1_0_0_n_n_wf : DotDims.WF S16x128 S128x128 S16x128 [1] [1] [0] [0] [] []
  dot_S512x128_S128x16_S512x16_1_0_0_1_n_n_wf : DotDims.WF S512x128 S128x16 S512x16 [1] [0] [0] [1] [] []
  dot_S4096x512_S512x16_S4096x16_1_0_0_1_n_n_wf : DotDims.WF S4096x512 S512x16 S4096x16 [1] [0] [0] [1] [] []
  dot_S4096x16_S16x128_S4096x128_1_0_0_1_n_n_wf : DotDims.WF S4096x16 S16x128 S4096x128 [1] [0] [0] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S131072x512.size a
  hwx0_0 : ∀ i : grid0.Coords, EltTy.bits .f32 = 32 ∨ (Rect.block (s := S131072x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x128.size a ≤ S131072x128.size a
  hwx0_4 : ∀ i : grid0.Coords, EltTy.bits .f32 = 32 ∨ (Rect.block (s := S131072x128) S4096x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S16384x128.size a
  hwx0_5 : ∀ i : grid0.Coords, EltTy.bits .f32 = 32 ∨ (Rect.block (s := S16384x128) S512x128.size (cc0_transform_5 i) (hinb0_5 i)).WholeWords (EltTy.packing .f32)

variable [Facts₀]

def dot_S16x128_S128x128_S16x128_1_1_0_0_n_n : DotDims S16x128 S128x128 S16x128 where
  lhsContracting := [1]
  rhsContracting := [1]
  lhsNonContracting := [0]
  rhsNonContracting := [0]
  lhsBatch := []
  rhsBatch := []
  wf := dot_S16x128_S128x128_S16x128_1_1_0_0_n_n_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf
def dot_S4096x512_S512x16_S4096x16_1_0_0_1_n_n : DotDims S4096x512 S512x16 S4096x16 where
  lhsContracting := [1]
  rhsContracting := [0]
  lhsNonContracting := [0]
  rhsNonContracting := [1]
  lhsBatch := []
  rhsBatch := []
  wf := dot_S4096x512_S512x16_S4096x16_1_0_0_1_n_n_wf
def dot_S4096x16_S16x128_S4096x128_1_0_0_1_n_n : DotDims S4096x16 S16x128 S4096x128 where
  lhsContracting := [1]
  rhsContracting := [0]
  lhsNonContracting := [0]
  rhsNonContracting := [1]
  lhsBatch := []
  rhsBatch := []
  wf := dot_S4096x16_S16x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S4096x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x8192x512 : Shape := ⟨3, ![16, 8192, 512]⟩
abbrev S16x8192 : Shape := ⟨2, ![16, 8192]⟩
abbrev S16x128 : Shape := ⟨2, ![16, 128]⟩
abbrev S128x512 : Shape := ⟨2, ![128, 512]⟩
abbrev S128x128 : Shape := ⟨2, ![128, 128]⟩
abbrev S16x8192x128 : Shape := ⟨3, ![16, 8192, 128]⟩
abbrev S16x8192x16 : Shape := ⟨3, ![16, 8192, 16]⟩
abbrev S_ : Shape := ⟨0, ![]⟩
abbrev S16x8192x1 : Shape := ⟨3, ![16, 8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S16x8192x512, .f32⟩
  | .hbm, ⟨1, _⟩ => ⟨S16x8192, .i1⟩
  | .hbm, ⟨2, _⟩ => ⟨S16x128, .f32⟩
  | .hbm, ⟨3, _⟩ => ⟨S128x512, .f32⟩
  | .hbm, ⟨4, _⟩ => ⟨S128x128, .f32⟩
  | .hbm, ⟨5, _⟩ => ⟨S128x128, .f32⟩
  | .hbm, ⟨6, _⟩ => ⟨S16x8192x128, .f32⟩
  | .hbm, ⟨7, _⟩ => ⟨S16x128, .f32⟩
  | .hbm, ⟨8, _⟩ => ⟨S16x8192x16, .f32⟩
  | .hbm, ⟨9, _⟩ => ⟨S_, .f32⟩
  | .hbm, ⟨10, _⟩ => ⟨S16x8192x16, .f32⟩
  | .hbm, ⟨11, _⟩ => ⟨S16x8192x16, .f32⟩
  | .hbm, ⟨12, _⟩ => ⟨S_, .f32⟩
  | .hbm, ⟨13, _⟩ => ⟨S16x8192, .f32⟩
  | .hbm, ⟨14, _⟩ => ⟨S_, .f32⟩
  | .hbm, ⟨15, _⟩ => ⟨S16x8192, .f32⟩
  | .hbm, ⟨16, _⟩ => ⟨S16x8192, .f32⟩
  | .hbm, ⟨17, _⟩ => ⟨S16x8192x1, .f32⟩
  | .hbm, ⟨18, _⟩ => ⟨S16x8192x16, .f32⟩
  | .hbm, ⟨19, _⟩ => ⟨S16x8192x16, .f32⟩
  | .hbm, ⟨20, _⟩ => ⟨S16x8192x16, .f32⟩
  | .hbm, ⟨21, _⟩ => ⟨S_, .f32⟩
  | .hbm, ⟨22, _⟩ => ⟨S16x8192, .f32⟩
  | .hbm, ⟨23, _⟩ => ⟨S16x8192x1, .f32⟩
  | .hbm, ⟨24, _⟩ => ⟨S16x8192x16, .f32⟩
  | .hbm, ⟨25, _⟩ => ⟨S16x8192x16, .f32⟩
  | .hbm, ⟨26, _⟩ => ⟨S16x8192x128, .f32⟩
  | .hbm, ⟨27, _⟩ => ⟨S16x8192x128, .f32⟩
  | _, _ => ⟨S16x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S16x8192x16 : S_.BroadcastsInDim S16x8192x16 (![] : Fin 0 → Fin S16x8192x16.rank)
  reducesTo_S16x8192x16_S16x8192_d2 : S16x8192x16.ReducesTo [2] S16x8192
  h_S_ : 0 < S_.numel
  bcast_S_S16x8192 : S_.BroadcastsInDim S16x8192 (![] : Fin 0 → Fin S16x8192.rank)
  bcast_S16x8192_S16x8192x1_0_1 : S16x8192.BroadcastsInDim S16x8192x1 (![0, 1] : Fin 2 → Fin S16x8192x1.rank)
  bcast_S16x8192x1_S16x8192x16_0_1_2 : S16x8192x1.BroadcastsInDim S16x8192x16 (![0, 1, 2] : Fin 3 → Fin S16x8192x16.rank)
  dot_S16x8192x512_S128x512_S16x8192x128_2_1_01_0_n_n_wf : DotDims.WF S16x8192x512 S128x512 S16x8192x128 [2] [1] [0, 1] [0] [] []
  dot_S16x128_S128x128_S16x128_1_1_0_0_n_n_wf : DotDims.WF S16x128 S128x128 S16x128 [1] [1] [0] [0] [] []
  dot_S16x8192x128_S16x128_S16x8192x16_2_1_01_0_n_n_wf : DotDims.WF S16x8192x128 S16x128 S16x8192x16 [2] [1] [0, 1] [0] [] []
  dot_S16x8192x16_S16x128_S16x8192x128_2_0_01_1_n_n_wf : DotDims.WF S16x8192x16 S16x128 S16x8192x128 [2] [0] [0, 1] [1] [] []
  dot_S16x8192x128_S128x128_S16x8192x128_2_1_01_0_n_n_wf : DotDims.WF S16x8192x128 S128x128 S16x8192x128 [2] [1] [0, 1] [0] [] []

variable [Facts₀]

def dot_S16x8192x512_S128x512_S16x8192x128_2_1_01_0_n_n : DotDims S16x8192x512 S128x512 S16x8192x128 where
  lhsContracting := [2]
  rhsContracting := [1]
  lhsNonContracting := [0, 1]
  rhsNonContracting := [0]
  lhsBatch := []
  rhsBatch := []
  wf := dot_S16x8192x512_S128x512_S16x8192x128_2_1_01_0_n_n_wf
def dot_S16x128_S128x128_S16x128_1_1_0_0_n_n : DotDims S16x128 S128x128 S16x128 where
  lhsContracting := [1]
  rhsContracting := [1]
  lhsNonContracting := [0]
  rhsNonContracting := [0]
  lhsBatch := []
  rhsBatch := []
  wf := dot_S16x128_S128x128_S16x128_1_1_0_0_n_n_wf
def dot_S16x8192x128_S16x128_S16x8192x16_2_1_01_0_n_n : DotDims S16x8192x128 S16x128 S16x8192x16 where
  lhsContracting := [2]
  rhsContracting := [1]
  lhsNonContracting := [0, 1]
  rhsNonContracting := [0]
  lhsBatch := []
  rhsBatch := []
  wf := dot_S16x8192x128_S16x128_S16x8192x16_2_1_01_0_n_n_wf
def dot_S16x8192x16_S16x128_S16x8192x128_2_0_01_1_n_n : DotDims S16x8192x16 S16x128 S16x8192x128 where
  lhsContracting := [2]
  rhsContracting := [0]
  lhsNonContracting := [0, 1]
  rhsNonContracting := [1]
  lhsBatch := []
  rhsBatch := []
  wf := dot_S16x8192x16_S16x128_S16x8192x128_2_0_01_1_n_n_wf
def dot_S16x8192x128_S128x128_S16x8192x128_2_1_01_0_n_n : DotDims S16x8192x128 S128x128 S16x8192x128 where
  lhsContracting := [2]
  rhsContracting := [1]
  lhsNonContracting := [0, 1]
  rhsNonContracting := [0]
  lhsBatch := []
  rhsBatch := []
  wf := dot_S16x8192x128_S128x128_S16x8192x128_2_1_01_0_n_n_wf

class Facts : Prop extends Facts₀ where

variable [Facts]
-- ==== Proof.SoftCodebook.lean ====
/-
  Soft assignment of a feature row to a codebook, as plain functions on the extended reals.

  A row `x` of 512 features is scored against 16 code vectors: the score of code `k` is
  `⟨x·Qᵀ, keys k⟩ · scale`, where `keys k p = ∑ d, C k d · Kw p d`.  The scores are turned into weights by a
  softmax (shifted by the row's maximum), the weights mix the code vectors, and the mixture is projected by `O`.

  The scores may be computed in two arrangements: project the row first and then take the inner product with each
  key (`scoreVia`), or fold the projection and the keys into ONE 512 × 16 matrix first (`combined`, `scoreDirect`).
  The two agree when every entry is a real number: moving a factor across a sum is distributivity, which the
  extended reals only have away from the infinities (`score_arrangements`).
-/
import Idealize.ShloMosaic.PureOps.Ideal
import Idealize.ShloMosaic.PureOps.Ideal.Laws
import Idealize.ShloMosaic.Lib.ValueIdx

noncomputable section

namespace Cert.SoftCodebook

open Idealize.ShloMosaic

/-- The factor the scores are multiplied by: one 32-bit pattern, the same in both programs, never evaluated. -/
def scale : EReal := Ideal.ofBits .f32 0x3DB504F3#32

/-- The value the running maximum starts from (the pattern of −∞). -/
def bottom : EReal := Ideal.ofBits .f32 0xFF800000#32

/-- The keys: each code vector against the key matrix, `keys k p = ∑ d, C k d · Kw p d`. -/
def keysOf (C : Fin 16 → Fin 128 → EReal) (Kw : Fin 128 → Fin 128 → EReal) (k : Fin 16) (p : Fin 128) : EReal :=
  ∑ d : Fin 128, C k d * Kw p d

/-- The query projection and the keys folded into one matrix: `W m k = ∑ p, Q p m · K k p`. -/
def combined (Q : Fin 128 → Fin 512 → EReal) (K : Fin 16 → Fin 128 → EReal) (m : Fin 512) (k : Fin 16) : EReal :=
  ∑ p : Fin 128, Q p m * K k p

/-- Scores by way of the projected row: `(∑ p, (∑ m, x m · Q p m) · K k p) · scale`. -/
def scoreVia (x : Fin 512 → EReal) (Q : Fin 128 → Fin 512 → EReal) (K : Fin 16 → Fin 128 → EReal) (k : Fin 16) : EReal :=
  (∑ p : Fin 128, (∑ m : Fin 512, x m * Q p m) * K k p) * scale

/-- Scores against one 512 × 16 matrix: `(∑ m, x m · W m k) · scale`. -/
def scoreDirect (x : Fin 512 → EReal) (W : Fin 512 → Fin 16 → EReal) (k : Fin 16) : EReal :=
  (∑ m : Fin 512, x m * W m k) * scale

/-- The maximum of a row of scores, started from `bottom` and joined with `bottom` once more. -/
def rowMax (s : Fin 16 → EReal) : EReal := max bottom ((Finset.univ : Finset (Fin 16)).fold max bottom s)

/-- The softmax weights of a row of scores. -/
def soft (s : Fin 16 → EReal) (k : Fin 16) : EReal :=
  Ideal.div (Ideal.exp (s k - rowMax s)) (∑ j : Fin 16, Ideal.exp (s j - rowMax s))

/-- The mixture of code vectors under weights `w`. -/
def mix (w : Fin 16 → EReal) (C : Fin 16 → Fin 128 → EReal) (d : Fin 128) : EReal := ∑ k : Fin 16, w k * C k d

/-- The output projection `∑ d, u d · O p d`. -/
def project (u : Fin 128 → EReal) (O : Fin 128 → Fin 128 → EReal) (p : Fin 128) : EReal := ∑ d : Fin 128, u d * O p d

/-- A finite sum of real numbers, taken in the extended reals, is the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The keys of real code vectors and a real key matrix are real. -/
theorem keysOf_real (C : Fin 16 → Fin 128 → EReal) (Kw : Fin 128 → Fin 128 → EReal)
    (hC : ∀ k d, ∃ r : ℝ, C k d = (r : EReal)) (hK : ∀ p d, ∃ r : ℝ, Kw p d = (r : EReal)) (k : Fin 16) (p : Fin 128) :
    ∃ r : ℝ, keysOf C Kw k p = (r : EReal) := by
  choose C' hC using hC
  choose K' hK using hK
  refine ⟨∑ d : Fin 128, C' k d * K' p d, ?_⟩
  unfold keysOf
  simp only [hC, hK, ← EReal.coe_mul, coe_sum]

/-- THE LAW: on real entries the two arrangements of the scores agree,
    `∑ m, x m · (∑ p, Q p m · K k p) = ∑ p, (∑ m, x m · Q p m) · K k p`. -/
theorem score_arrangements (x : Fin 512 → EReal) (Q : Fin 128 → Fin 512 → EReal) (K : Fin 16 → Fin 128 → EReal)
    (hx : ∀ m, ∃ r : ℝ, x m = (r : EReal)) (hQ : ∀ p m, ∃ r : ℝ, Q p m = (r : EReal))
    (hK : ∀ k p, ∃ r : ℝ, K k p = (r : EReal)) (k : Fin 16) :
    scoreDirect x (combined Q K) k = scoreVia x Q K k := by
  choose x' hx using hx
  choose Q' hQ using hQ
  choose K' hK using hK
  unfold scoreDirect scoreVia combined
  refine congrArg (· * scale) ?_
  simp only [hx, hQ, hK, ← EReal.coe_mul, coe_sum]
  refine congrArg (fun r : ℝ => (r : EReal)) ?_
  simp only [Finset.mul_sum, Finset.sum_mul]
  rw [Finset.sum_comm]
  exact Finset.sum_congr rfl fun p _ => Finset.sum_congr rfl fun m _ => by ring

end Cert.SoftCodebook

end
-- ==== Proof.BlockRows.lean ====
/-
  One block of rows through the body, read row by row.

  The body takes a block of 4096 feature rows `x0`, the folded 512 × 16 score matrix `x1`, the 16 × 128 codebook
  `x2` and the transposed output projection `x3`.  Row `r` of what it computes depends on row `r` of `x0` only:
  its scores are `scoreDirect (x0 r ·) x1`, its weights the softmax of those scores, and its output the mixture of
  code vectors under those weights, projected.  The three matrix products are plain row-by-column sums at the
  extended reals, a row's maximum is a fold of `max` over its 16 entries, and a row's sum a sum over them.
-/
import proofs.«111480_j85693187490397_2_alg».proof.Proof.Gen.KernelIdeal.Skeleton
import proofs.«111480_j85693187490397_2_alg».proof.Proof.SoftCodebook
import Idealize.ShloMosaic.Lib.ValueIdx
import Idealize.ShloMosaic.Lib.Pipeline.Value
import Idealize.ShloMosaic.PureOps.Ideal.Laws

noncomputable section

namespace Cert.KernelIdeal.BlockRows

open Idealize.ShloMosaic Idealize.ShloMosaic.ValueIdx Cert.KernelIdeal Cert.KernelIdeal.Gen Cert.SoftCodebook

/-! ## The body's value as three stages -/

/-- The scaled scores of every row of the block. -/
def scoresV (x0 : Vec Ideal S4096x512 .f32) (x1 : Vec Ideal S512x16 .f32) : FVec Ideal S4096x16 .f32 :=
  mulf (matmul dot_S4096x512_S512x16_S4096x16_1_0_0_1_n_n none
      (truncf .bf16 (shapeCast S4096x512 x0 shapeCasts_S4096x512_S4096x512) bitsLt_bf16_f32)
      (truncf .bf16 (shapeCast S512x16 x1 shapeCasts_S512x16_S512x16) bitsLt_bf16_f32)
      (constant S4096x16 .f32 0x00000000#32))
    (broadcast S4096x16 (Scalar.ofBits .f32 0x3DB504F3#32))

/-- The softmax of every row of a 4096 × 16 array of scores. -/
def softV (s : FVec Ideal S4096x16 .f32) : FVec Ideal S4096x16 .f32 :=
  have v9 : FVec Ideal S4096 .f32 := multiReduction .maximumf [1] S4096 s 0xFF800000#32 reduces_S4096x16_S4096 (.inl rfl) rfl
  have v11 : FVec Ideal S4096 .f32 := maximumf (broadcast S4096 (Scalar.ofBits .f32 0xFF800000#32)) v9
  have v13 : FVec Ideal S4096x16 .f32 := broadcastTo S4096x16 (shapeCast S4096x1 v11 shapeCasts_S4096_S4096x1) broadcasts_S4096x1_S4096x16
  have v15 : FVec Ideal S4096x16 .f32 := exp (subf s v13)
  have v16 : FVec Ideal S4096 .f32 := multiReduction .add [1] S4096 v15 0x00000000#32 reduces_S4096x16_S4096 (.inl rfl) rfl
  have v18 : FVec Ideal S4096x16 .f32 := broadcastTo S4096x16 (shapeCast S4096x1 v16 shapeCasts_S4096_S4096x1) broadcasts_S4096x1_S4096x16
  divf v15 v18

/-- Weights against the codebook, then against the transposed output projection. -/
def outV (w : FVec Ideal S4096x16 .f32) (x2 : Vec Ideal S16x128 .f32) (x3 : Vec Ideal S128x128 .f32) : FVec Ideal S4096x128 .f32 :=
  matmul dot_S4096x128_S128x128_S4096x128_1_0_0_1_n_n none
    (truncf .bf16 (matmul dot_S4096x16_S16x128_S4096x128_1_0_0_1_n_n none (truncf .bf16 w bitsLt_bf16_f32)
      (truncf .bf16 x2 bitsLt_bf16_f32) (constant S4096x128 .f32 0x00000000#32)) bitsLt_bf16_f32)
    (truncf .bf16 (shapeCast S128x128 x3 shapeCasts_S128x128_S128x128) bitsLt_bf16_f32)
    (constant S4096x128 .f32 0x00000000#32)

theorem weights_stages (x0 : Vec Ideal S4096x512 .f32) (x1 : Vec Ideal S512x16 .f32) :
    k0_pay1 (F := Ideal) x0 x1 = softV (scoresV x0 x1) := rfl

theorem output_stages (x0 : Vec Ideal S4096x512 .f32) (x1 : Vec Ideal S512x16 .f32) (x2 : Vec Ideal S16x128 .f32)
    (x3 : Vec Ideal S128x128 .f32) :
    k0_pay3 (F := Ideal) x0 x1 x2 x3 = outV (softV (scoresV x0 x1)) x2 x3 := rfl

/-! ## Layout: a column of row values spread over the 16 entries of each row -/

/-- A vector of 4096 row values, reshaped to a column and broadcast along the rows, reads at `(r, k)` the value of row `r`. -/
theorem column_apply (v : FVec Ideal S4096 .f32) (r : Fin 4096) (k : Fin 16) :
    broadcastTo S4096x16 (shapeCast S4096x1 v shapeCasts_S4096_S4096x1) broadcasts_S4096x1_S4096x16 (ix2 r k) = v (ix1 r) := by
  refine (broadcastTo_apply _ broadcasts_S4096x1_S4096x16 (ix2 r k) (ix2 r (0 : Fin 1)) fun a => ?_).trans ?_
  · match a with
    | ⟨0, _⟩ => show r.val = if (4096 : ℕ) = 1 then 0 else r.val; rw [if_neg (by decide)]
    | ⟨1, _⟩ => show (0 : ℕ) = if (1 : ℕ) = 1 then 0 else k.val; rw [if_pos rfl]
  · exact shapeCast_apply v shapeCasts_S4096_S4096x1 (ix2 r (0 : Fin 1)) (ix1 r) (by
      rw [Shape.rowMajor_val_one, Shape.rowMajor_val_two]; show r.val = r.val * 1 + 0; omega)

/-! ## Reductions along a row -/

/-- The maximum over the 16 entries of row `r`, from the pattern of −∞. -/
theorem rowmax_apply (s : FVec Ideal S4096x16 .f32) (r : Fin 4096) :
    multiReduction .maximumf [1] S4096 s 0xFF800000#32 reduces_S4096x16_S4096 (.inl rfl) rfl (ix1 r)
      = (Finset.univ : Finset (Fin 16)).fold max bottom (fun j => s (ix2 r j)) := by
  refine (Ideal.multiReduction_maximumf_single s 0xFF800000#32 reduces_S4096x16_S4096 (.inl rfl) rfl (ix1 r)).trans ?_
  show (Finset.univ : Finset (Fin 16)).fold max bottom (s ∘ reduces_S4096x16_S4096.lift (ix1 r)) = _
  refine congrArg ((Finset.univ : Finset (Fin 16)).fold max bottom) (funext fun j => congrArg s (funext fun a => Fin.ext ?_))
  match a with
  | ⟨0, _⟩ => rfl
  | ⟨1, _⟩ => rfl

/-- The sum over the 16 entries of row `r`. -/
theorem rowsum_apply (e : FVec Ideal S4096x16 .f32) (r : Fin 4096) :
    multiReduction .add [1] S4096 e 0x00000000#32 reduces_S4096x16_S4096 (.inl rfl) rfl (ix1 r)
      = ∑ j : Fin 16, e (ix2 r j) := by
  refine (Ideal.multiReduction_add_single e 0x00000000#32 reduces_S4096x16_S4096 (.inl rfl) rfl (ix1 r)).trans ?_
  show ∑ j : Fin 16, e (reduces_S4096x16_S4096.lift (ix1 r) j) = _
  refine Finset.sum_congr rfl fun j _ => congrArg e (funext fun a => Fin.ext ?_)
  match a with
  | ⟨0, _⟩ => rfl
  | ⟨1, _⟩ => rfl

/-- Row `r` of the softmax stage is the softmax of row `r`. -/
theorem softV_apply (s : FVec Ideal S4096x16 .f32) (r : Fin 4096) (k : Fin 16) :
    softV s (ix2 r k) = soft (fun j => s (ix2 r j)) k := by
  have hmax : ∀ j : Fin 16, broadcastTo S4096x16 (shapeCast S4096x1 (maximumf (broadcast S4096 (Scalar.ofBits .f32 0xFF800000#32))
      (multiReduction .maximumf [1] S4096 s 0xFF800000#32 reduces_S4096x16_S4096 (.inl rfl) rfl)) shapeCasts_S4096_S4096x1)
      broadcasts_S4096x1_S4096x16 (ix2 r j) = rowMax (fun j => s (ix2 r j)) := fun j => by
    refine (column_apply _ r j).trans ?_
    show max bottom _ = _
    rw [rowmax_apply]; rfl
  unfold softV soft
  show Ideal.div (Ideal.exp (s (ix2 r k) - _)) _ = _
  rw [hmax k, column_apply, rowsum_apply]
  refine congrArg (Ideal.div _) (Finset.sum_congr rfl fun j _ => ?_)
  show Ideal.exp (s (ix2 r j) - _) = _
  rw [hmax j]

/-! ## The three matrix products, row by column -/

theorem rows_by_scores_row (i : S4096x16.Idx) (q : dot_S4096x512_S512x16_S4096x16_1_0_0_1_n_n.contr.Idx) : (dot_S4096x512_S512x16_S4096x16_1_0_0_1_n_n.lhsIdx i q 0).val = (i 0).val := by
  unfold DotDims.lhsIdx
  rw [dif_neg (show ¬(0 : Fin S4096x512.rank) ∈ dot_S4096x512_S512x16_S4096x16_1_0_0_1_n_n.lhsBatch by decide), dif_pos (show (0 : Fin S4096x512.rank) ∈ dot_S4096x512_S512x16_S4096x16_1_0_0_1_n_n.lhsNonContracting by decide)]
  rfl
theorem rows_by_scores_col (i : S4096x16.Idx) (q : dot_S4096x512_S512x16_S4096x16_1_0_0_1_n_n.contr.Idx) : (dot_S4096x512_S512x16_S4096x16_1_0_0_1_n_n.rhsIdx i q 1).val = (i 1).val := by
  unfold DotDims.rhsIdx
  rw [dif_neg (show ¬(1 : Fin S512x16.rank) ∈ dot_S4096x512_S512x16_S4096x16_1_0_0_1_n_n.rhsBatch by decide), dif_pos (show (1 : Fin S512x16.rank) ∈ dot_S4096x512_S512x16_S4096x16_1_0_0_1_n_n.rhsNonContracting by decide)]
  rfl
/-- Feature rows against the 512 × 16 score matrix. -/
theorem rows_by_scores (l : FVec Ideal S4096x512 .bf16) (g : FVec Ideal S512x16 .bf16) (r : Fin 4096) (c : Fin 16) :
    FloatOps.matmul dot_S4096x512_S512x16_S4096x16_1_0_0_1_n_n none l g (constant S4096x16 .f32 0x00000000#32) (ix2 r c)
      = ∑ q : Fin 512, l (ix2 r q) * g (ix2 q c) := by
  rw [Ideal.matmul_constant_zero_apply, ← Equiv.sum_comp (ValueIdx.contrEquiv1 dot_S4096x512_S512x16_S4096x16_1_0_0_1_n_n 512 rfl rfl).symm]
  refine Finset.sum_congr rfl fun q _ => ?_
  have hq := ValueIdx.contrEquiv1_symm_val dot_S4096x512_S512x16_S4096x16_1_0_0_1_n_n 512 rfl rfl q
  have el : dot_S4096x512_S512x16_S4096x16_1_0_0_1_n_n.lhsIdx (ix2 r c) ((ValueIdx.contrEquiv1 dot_S4096x512_S512x16_S4096x16_1_0_0_1_n_n 512 rfl rfl).symm q) = ix2 r q := funext fun a => Fin.ext (by
    match a with
    | ⟨0, _⟩ => exact rows_by_scores_row _ _
    | ⟨1, _⟩ => exact (dot_S4096x512_S512x16_S4096x16_1_0_0_1_n_n.lhsIdx_val_of_single rfl _ _).trans hq)
  have er : dot_S4096x512_S512x16_S4096x16_1_0_0_1_n_n.rhsIdx (ix2 r c) ((ValueIdx.contrEquiv1 dot_S4096x512_S512x16_S4096x16_1_0_0_1_n_n 512 rfl rfl).symm q) = ix2 q c := funext fun a => Fin.ext (by
    match a with
    | ⟨0, _⟩ => exact (dot_S4096x512_S512x16_S4096x16_1_0_0_1_n_n.rhsIdx_val_of_single rfl _ _).trans hq
    | ⟨1, _⟩ => exact rows_by_scores_col _ _)
  rw [el, er]

theorem weights_by_codebook_row (i : S4096x128.Idx) (q : dot_S4096x16_S16x128_S4096x128_1_0_0_1_n_n.contr.Idx) : (dot_S4096x16_S16x128_S4096x128_1_0_0_1_n_n.lhsIdx i q 0).val = (i 0).val := by
  unfold DotDims.lhsIdx
  rw [dif_neg (show ¬(0 : Fin S4096x16.rank) ∈ dot_S4096x16_S16x128_S4096x128_1_0_0_1_n_n.lhsBatch by decide), dif_pos (show (0 : Fin S4096x16.rank) ∈ dot_S4096x16_S16x128_S4096x128_1_0_0_1_n_n.lhsNonContracting by decide)]
  rfl
theorem weights_by_codebook_col (i : S4096x128.Idx) (q : dot_S4096x16_S16x128_S4096x128_1_0_0_1_n_n.contr.Idx) : (dot_S4096x16_S16x128_S4096x128_1_0_0_1_n_n.rhsIdx i q 1).val = (i 1).val := by
  unfold DotDims.rhsIdx
  rw [dif_neg (show ¬(1 : Fin S16x128.rank) ∈ dot_S4096x16_S16x128_S4096x128_1_0_0_1_n_n.rhsBatch by decide), dif_pos (show (1 : Fin S16x128.rank) ∈ dot_S4096x16_S16x128_S4096x128_1_0_0_1_n_n.rhsNonContracting by decide)]
  rfl
/-- Weight rows against the 16 × 128 codebook. -/
theorem weights_by_codebook (l : FVec Ideal S4096x16 .bf16) (g : FVec Ideal S16x128 .bf16) (r : Fin 4096) (c : Fin 128) :
    FloatOps.matmul dot_S4096x16_S16x128_S4096x128_1_0_0_1_n_n none l g (constant S4096x128 .f32 0x00000000#32) (ix2 r c)
      = ∑ q : Fin 16, l (ix2 r q) * g (ix2 q c) := by
  rw [Ideal.matmul_constant_zero_apply, ← Equiv.sum_comp (ValueIdx.contrEquiv1 dot_S4096x16_S16x128_S4096x128_1_0_0_1_n_n 16 rfl rfl).symm]
  refine Finset.sum_congr rfl fun q _ => ?_
  have hq := ValueIdx.contrEquiv1_symm_val dot_S4096x16_S16x128_S4096x128_1_0_0_1_n_n 16 rfl rfl q
  have el : dot_S4096x16_S16x128_S4096x128_1_0_0_1_n_n.lhsIdx (ix2 r c) ((ValueIdx.contrEquiv1 dot_S4096x16_S16x128_S4096x128_1_0_0_1_n_n 16 rfl rfl).symm q) = ix2 r q := funext fun a => Fin.ext (by
    match a with
    | ⟨0, _⟩ => exact weights_by_codebook_row _ _
    | ⟨1, _⟩ => exact (dot_S4096x16_S16x128_S4096x128_1_0_0_1_n_n.lhsIdx_val_of_single rfl _ _).trans hq)
  have er : dot_S4096x16_S16x128_S4096x128_1_0_0_1_n_n.rhsIdx (ix2 r c) ((ValueIdx.contrEquiv1 dot_S4096x16_S16x128_S4096x128_1_0_0_1_n_n 16 rfl rfl).symm q) = ix2 q c := funext fun a => Fin.ext (by
    match a with
    | ⟨0, _⟩ => exact (dot_S4096x16_S16x128_S4096x128_1_0_0_1_n_n.rhsIdx_val_of_single rfl _ _).trans hq
    | ⟨1, _⟩ => exact weights_by_codebook_col _ _)
  rw [el, er]

theorem mixture_by_projection_row (i : S4096x128.Idx) (q : dot_S4096x128_S128x128_S4096x128_1_0_0_1_n_n.contr.Idx) : (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem mixture_by_projection_col (i : S4096x128.Idx) (q : dot_S4096x128_S128x128_S4096x128_1_0_0_1_n_n.contr.Idx) : (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl
/-- Mixture rows against the 128 × 128 transposed projection. -/
theorem mixture_by_projection (l : FVec Ideal S4096x128 .bf16) (g : FVec Ideal S128x128 .bf16) (r : Fin 4096) (c : Fin 128) :
    FloatOps.matmul dot_S4096x128_S128x128_S4096x128_1_0_0_1_n_n none l g (constant S4096x128 .f32 0x00000000#32) (ix2 r c)
      = ∑ q : Fin 128, l (ix2 r q) * g (ix2 q c) := by
  rw [Ideal.matmul_constant_zero_apply, ← Equiv.sum_comp (ValueIdx.contrEquiv1 dot_S4096x128_S128x128_S4096x128_1_0_0_1_n_n 128 rfl rfl).symm]
  refine Finset.sum_congr rfl fun q _ => ?_
  have hq := ValueIdx.contrEquiv1_symm_val dot_S4096x128_S128x128_S4096x128_1_0_0_1_n_n 128 rfl rfl q
  have el : dot_S4096x128_S128x128_S4096x128_1_0_0_1_n_n.lhsIdx (ix2 r c) ((ValueIdx.contrEquiv1 dot_S4096x128_S128x128_S4096x128_1_0_0_1_n_n 128 rfl rfl).symm q) = ix2 r q := funext fun a => Fin.ext (by
    match a with
    | ⟨0, _⟩ => exact mixture_by_projection_row _ _
    | ⟨1, _⟩ => exact (dot_S4096x128_S128x128_S4096x128_1_0_0_1_n_n.lhsIdx_val_of_single rfl _ _).trans hq)
  have er : dot_S4096x128_S128x128_S4096x128_1_0_0_1_n_n.rhsIdx (ix2 r c) ((ValueIdx.contrEquiv1 dot_S4096x128_S128x128_S4096x128_1_0_0_1_n_n 128 rfl rfl).symm q) = ix2 q c := funext fun a => Fin.ext (by
    match a with
    | ⟨0, _⟩ => exact (dot_S4096x128_S128x128_S4096x128_1_0_0_1_n_n.rhsIdx_val_of_single rfl _ _).trans hq
    | ⟨1, _⟩ => exact mixture_by_projection_col _ _)
  rw [el, er]

/-! ## The stages at a row -/

/-- Row `r` of the scores is `scoreDirect` of row `r` of the features against the score matrix. -/
theorem scoresV_apply (x0 : Vec Ideal S4096x512 .f32) (x1 : Vec Ideal S512x16 .f32) (r : Fin 4096) (k : Fin 16) :
    scoresV x0 x1 (ix2 r k) = scoreDirect (fun m => x0 (ix2 r m)) (fun m k => x1 (ix2 m k)) k := by
  unfold scoresV scoreDirect
  show FloatOps.matmul (F := Ideal) dot_S4096x512_S512x16_S4096x16_1_0_0_1_n_n none _ _ (constant (F := Ideal) S4096x16 .f32 0x00000000#32) (ix2 r k) * scale = _
  rw [rows_by_scores]
  refine congrArg (· * scale) (Finset.sum_congr rfl fun m _ => ?_)
  rw [shapeCast_self, shapeCast_self]
  rfl

/-- Row `r` of the output is the projected mixture of the code vectors under row `r` of the weights. -/
theorem outV_apply (w : FVec Ideal S4096x16 .f32) (x2 : Vec Ideal S16x128 .f32) (x3 : Vec Ideal S128x128 .f32) (r : Fin 4096) (p : Fin 128) :
    outV w x2 x3 (ix2 r p)
      = project (mix (fun k => w (ix2 r k)) (fun k d => x2 (ix2 k d))) (fun p d => x3 (ix2 d p)) p := by
  unfold outV project mix
  show FloatOps.matmul (F := Ideal) dot_S4096x128_S128x128_S4096x128_1_0_0_1_n_n none _ _ (constant (F := Ideal) S4096x128 .f32 0x00000000#32) (ix2 r p) = _
  rw [mixture_by_projection]
  refine Finset.sum_congr rfl fun d _ => ?_
  rw [shapeCast_self]
  refine congrArg (· * x3 (ix2 d p)) ?_
  show FloatOps.matmul (F := Ideal) dot_S4096x16_S16x128_S4096x128_1_0_0_1_n_n none _ _ (constant (F := Ideal) S4096x128 .f32 0x00000000#32) (ix2 r d) = _
  rw [weights_by_codebook]
  rfl

end Cert.KernelIdeal.BlockRows

end
-- ==== Proof.KernelArrays.lean ====
/-
  The two arrays the region leaves, as whole-array functions of the arrays it finds.

  The region finds the features flattened to 131072 rows (`X`), the folded score matrix (`W`), the codebook (`C`)
  and the transposed projection (`OT`).  Point `t` of the grid handles rows `4096·t … 4096·t + 4095`: it writes
  block `t` of the 131072 × 128 output, whose row `R` is the projected mixture for row `R` of `X`, and block `t` of
  the 16384 × 128 packed weights — the 131072 × 16 weights laid out row-major with eight rows of 16 to a line of 128,
  so entry `(a, l)` is the weight of row `(128·a + l) / 16` for code `(128·a + l) % 16`.  The 32 blocks tile each array.
-/
import proofs.«111480_j85693187490397_2_alg».proof.Proof.Gen.KernelIdeal.Frame
import proofs.«111480_j85693187490397_2_alg».proof.Proof.BlockRows
import Idealize.ShloMosaic.Lib.Pipeline.Value

noncomputable section

namespace Cert.KernelIdeal.Arrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.BlockRows Cert.SoftCodebook

/-! ## The whole-array functions -/

/-- The softmax weights of row `R` of the flattened features. -/
def rowWeights (X : S131072x512.Idx → EReal) (W : S512x16.Idx → EReal) (R : Fin 131072) : Fin 16 → EReal :=
  soft (scoreDirect (fun q => X (ix2 R q)) (fun q k => W (ix2 q k)))

/-- The projected mixture for row `R`. -/
def rowOutput (X : S131072x512.Idx → EReal) (W : S512x16.Idx → EReal) (C : S16x128.Idx → EReal) (OT : S128x128.Idx → EReal)
    (R : Fin 131072) (p : Fin 128) : EReal :=
  project (mix (rowWeights X W R) (fun k d => C (ix2 k d))) (fun p d => OT (ix2 d p)) p

/-- The 131072 × 128 output array. -/
def outputArray (X : S131072x512.Idx → EReal) (W : S512x16.Idx → EReal) (C : S16x128.Idx → EReal) (OT : S128x128.Idx → EReal) :
    S131072x128.Idx → EReal :=
  fun i => rowOutput X W C OT ⟨(i 0).val, (i 0).isLt⟩ ⟨(i 1).val, (i 1).isLt⟩

/-- The 16384 × 128 packed weights: entry `(a, l)` is the weight of row `(128 a + l) / 16` for code `(128 a + l) % 16`. -/
def packedWeights (X : S131072x512.Idx → EReal) (W : S512x16.Idx → EReal) : S16384x128.Idx → EReal :=
  fun i => rowWeights X W
    ⟨((i 0).val * 128 + (i 1).val) / 16, by
      have h0 : (i 0).val < 16384 := (i 0).isLt
      have h1 : (i 1).val < 128 := (i 1).isLt
      omega⟩
    ⟨((i 0).val * 128 + (i 1).val) % 16, Nat.mod_lt _ (by decide)⟩

/-! ## One block, from the blocks the body loads -/

/-- The body's weights at local row `r`, when that row of the feature block is row `R` of `X`. -/
theorem weights_of_block (X : S131072x512.Idx → EReal) (W : S512x16.Idx → EReal)
    (x0 : Vec Ideal S4096x512 .f32) (x1 : Vec Ideal S512x16 .f32) (r : Fin 4096) (k : Fin 16) (R : Fin 131072)
    (h0 : ∀ q : Fin 512, x0 (ix2 r q) = X (ix2 R q)) (h1 : ∀ (q : Fin 512) (k : Fin 16), x1 (ix2 q k) = W (ix2 q k)) :
    k0_pay1 (F := Ideal) x0 x1 (ix2 r k) = rowWeights X W R k := by
  rw [weights_stages, softV_apply]
  unfold rowWeights
  simp only [scoresV_apply, h0, h1]

/-- The body's output at local row `r`. -/
theorem output_of_block (X : S131072x512.Idx → EReal) (W : S512x16.Idx → EReal) (C : S16x128.Idx → EReal) (OT : S128x128.Idx → EReal)
    (x0 : Vec Ideal S4096x512 .f32) (x1 : Vec Ideal S512x16 .f32) (x2 : Vec Ideal S16x128 .f32) (x3 : Vec Ideal S128x128 .f32)
    (r : Fin 4096) (p : Fin 128) (R : Fin 131072)
    (h0 : ∀ q : Fin 512, x0 (ix2 r q) = X (ix2 R q)) (h1 : ∀ (q : Fin 512) (k : Fin 16), x1 (ix2 q k) = W (ix2 q k))
    (h2 : ∀ (k : Fin 16) (d : Fin 128), x2 (ix2 k d) = C (ix2 k d)) (h3 : ∀ d p : Fin 128, x3 (ix2 d p) = OT (ix2 d p)) :
    k0_pay3 (F := Ideal) x0 x1 x2 x3 (ix2 r p) = rowOutput X W C OT R p := by
  rw [output_stages, outV_apply]
  unfold rowOutput rowWeights
  simp only [softV_apply, scoresV_apply, h0, h1, h2, h3]

/-- The packed store: entry `(a, l)` of the 512 × 128 line layout is the weight at row `(128 a + l) / 16`, code
    `(128 a + l) % 16` of the block. -/
theorem packed_of_block (x0 : Vec Ideal S4096x512 .f32) (x1 : Vec Ideal S512x16 .f32) (a : Fin 512) (l : Fin 128)
    (r : Fin 4096) (k : Fin 16) (hr : r.val = (a.val * 128 + l.val) / 16) (hk : k.val = (a.val * 128 + l.val) % 16) :
    k0_pay2 (F := Ideal) x0 x1 (ix2 a l) = k0_pay1 (F := Ideal) x0 x1 (ix2 r k) := by
  unfold k0_pay2
  exact shapeCast_apply _ shapeCasts_S4096x16_S512x128 (ix2 a l) (ix2 r k) (by
    rw [Shape.rowMajor_val_two, Shape.rowMajor_val_two]
    show r.val * 16 + k.val = a.val * 128 + l.val
    omega)

/-! ## The blocks at a point of the grid -/

variable (m : (ℓ : Loc nD τ sig) → Buf (Elt Ideal) ℓ) (ρ : Dev nD → PrngReg)

theorem hz : (![0, 0] : Fin 2 → Nat) = fun _ => 0 := funext fun a => by fin_cases a <;> rfl

/-- The index maps over the 32 points: the features, the output and the packed weights move one block per point along
    the rows; the three parameter arrays stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Local row `r` of the feature block at point `t` is row `4096 t + r` of the flattened features. -/
theorem features_block (c : Dev nD) (t : Fin cfg0.N) (r : Fin 4096) (q : Fin 512) (R : Fin 131072)
    (hR : R.val = t.val * 4096 + r.val) :
    (iblk m c 0 t : Vec Ideal S4096x512 .f32) (ix2 r q) = (V m c main_v0 : S131072x512.Idx → EReal) (ix2 R q) := by
  obtain ⟨e0, e1, -⟩ := idx_facts t
  show V m c main_v0 (((cfg0.win 0).blk t).view.emb (ix2 r q)) = V m c main_v0 (ix2 R q)
  refine congrArg (V m c main_v0) (funext fun a => Fin.ext ?_)
  match a with
  | ⟨0, _⟩ => show win0_0.index t (0 : Fin 2) * 4096 + 1 * r.val = R.val; omega
  | ⟨1, _⟩ => show win0_0.index t (1 : Fin 2) * 512 + 1 * q.val = q.val; omega

/-- The score matrix's block is the whole matrix, at every point. -/
theorem scores_block (c : Dev nD) (t : Fin cfg0.N) (q : Fin 512) (k : Fin 16) :
    (iblk m c 1 t : Vec Ideal S512x16 .f32) (ix2 q k) = (V m c main_v4 : S512x16.Idx → EReal) (ix2 q k) := by
  obtain ⟨-, -, e2, e3, -⟩ := idx_facts t
  show V m c main_v4 (((cfg0.win 1).blk t).view.emb (ix2 q k)) = V m c main_v4 (ix2 q k)
  refine congrArg (V m c main_v4) (funext fun a => Fin.ext ?_)
  match a with
  | ⟨0, _⟩ => show win0_1.index t (0 : Fin 2) * 512 + 1 * q.val = q.val; omega
  | ⟨1, _⟩ => show win0_1.index t (1 : Fin 2) * 16 + 1 * k.val = k.val; omega

/-- The codebook's block is the whole codebook. -/
theorem codebook_block (c : Dev nD) (t : Fin cfg0.N) (k : Fin 16) (d : Fin 128) :
    (iblk m c 2 t : Vec Ideal S16x128 .f32) (ix2 k d) = (V m c main_arg2 : S16x128.Idx → EReal) (ix2 k d) := by
  obtain ⟨-, -, -, -, e4, e5, -⟩ := idx_facts t
  show V m c main_arg2 (((cfg0.win 2).blk t).view.emb (ix2 k d)) = V m c main_arg2 (ix2 k d)
  refine congrArg (V m c main_arg2) (funext fun a => Fin.ext ?_)
  match a with
  | ⟨0, _⟩ => show win0_2.index t (0 : Fin 2) * 16 + 1 * k.val = k.val; omega
  | ⟨1, _⟩ => show win0_2.index t (1 : Fin 2) * 128 + 1 * d.val = d.val; omega

/-- The transposed projection's block is the whole matrix. -/
theorem projection_block (c : Dev nD) (t : Fin cfg0.N) (d p : Fin 128) :
    (iblk m c 3 t : Vec Ideal S128x128 .f32) (ix2 d p) = (V m c main_v5 : S128x128.Idx → EReal) (ix2 d p) := by
  obtain ⟨-, -, -, -, -, -, e6, e7, -⟩ := idx_facts t
  show V m c main_v5 (((cfg0.win 3).blk t).view.emb (ix2 d p)) = V m c main_v5 (ix2 d p)
  refine congrArg (V m c main_v5) (funext fun a => Fin.ext ?_)
  match a with
  | ⟨0, _⟩ => show win0_3.index t (0 : Fin 2) * 128 + 1 * d.val = d.val; omega
  | ⟨1, _⟩ => show win0_3.index t (1 : Fin 2) * 128 + 1 * p.val = p.val; omega

/-! ## What a point writes back -/

/-- Point `t` writes block `t` of the output array. -/
theorem flushed_output (c : Dev nD) (t : Fin cfg0.N) :
    (dats m 0 c).flushed 4 t = ((cfg0.win 4).blk t).view.read (Elt Ideal)
      (outputArray (V m c main_v0) (V m c main_v4) (V m c main_arg2) (V m c main_v5)) := by
  show (cfg0.win 4).cut (grid0.coords t) ((dats m 0 c).after 4 t) = _
  rw [after0_4]
  unfold out0_4
  rw [View.canon_unit_zero hz]
  simp only [View.ld_unit_zero (S := S4096x512) hz, View.ld_unit_zero (S := S512x16) hz,
    View.ld_unit_zero (S := S16x128) hz, View.ld_unit_zero (S := S128x128) hz]
  obtain ⟨-, -, -, -, -, -, -, -, e8, e9, -⟩ := idx_facts t
  funext y
  obtain ⟨r, p, rfl⟩ : ∃ (r : Fin 4096) (p : Fin 128), y = ix2 r p := ⟨y 0, y 1, eq_ix2 y⟩
  have ht : t.val < 32 := Nat.lt_of_lt_of_eq t.isLt N_0
  refine (output_of_block (V m c main_v0) (V m c main_v4) (V m c main_arg2) (V m c main_v5)
    (iblk m c 0 t) (iblk m c 1 t) (iblk m c 2 t) (iblk m c 3 t) r p ⟨t.val * 4096 + r.val, by omega⟩
    (fun q => features_block m c t r q _ rfl) (scores_block m c t) (codebook_block m c t) (projection_block m c t)).trans ?_
  show rowOutput _ _ _ _ _ _ = rowOutput _ _ _ _ _ _
  refine congrArg₂ (rowOutput _ _ _ _) (Fin.ext ?_) (Fin.ext ?_)
  · show t.val * 4096 + r.val = win0_4.index t (0 : Fin 2) * 4096 + 1 * r.val; omega
  · show p.val = win0_4.index t (1 : Fin 2) * 128 + 1 * p.val; omega

/-- Point `t` writes block `t` of the packed weights. -/
theorem flushed_packed (c : Dev nD) (t : Fin cfg0.N) :
    (dats m 0 c).flushed 5 t = ((cfg0.win 5).blk t).view.read (Elt Ideal)
      (packedWeights (V m c main_v0) (V m c main_v4)) := by
  show (cfg0.win 5).cut (grid0.coords t) ((dats m 0 c).after 5 t) = _
  rw [after0_5]
  unfold out0_5
  rw [View.canon_unit_zero hz]
  simp only [View.ld_unit_zero (S := S4096x512) hz, View.ld_unit_zero (S := S512x16) hz]
  obtain ⟨-, -, -, -, -, -, -, -, -, -, e10, e11⟩ := idx_facts t
  funext y
  obtain ⟨a, l, rfl⟩ : ∃ (a : Fin 512) (l : Fin 128), y = ix2 a l := ⟨y 0, y 1, eq_ix2 y⟩
  have ht : t.val < 32 := Nat.lt_of_lt_of_eq t.isLt N_0
  have ha : a.val < 512 := a.isLt
  have hl : l.val < 128 := l.isLt
  refine (packed_of_block (iblk m c 0 t) (iblk m c 1 t) a l ⟨(a.val * 128 + l.val) / 16, by omega⟩
    ⟨(a.val * 128 + l.val) % 16, Nat.mod_lt _ (by decide)⟩ rfl rfl).trans ?_
  refine (weights_of_block (V m c main_v0) (V m c main_v4) (iblk m c 0 t) (iblk m c 1 t) _ _
    ⟨t.val * 4096 + (a.val * 128 + l.val) / 16, by omega⟩
    (fun q => features_block m c t _ q _ rfl) (scores_block m c t)).trans ?_
  show rowWeights _ _ _ _ = rowWeights _ _ _ _
  refine congrArg₂ (rowWeights _ _) (Fin.ext ?_) (Fin.ext ?_)
  · show t.val * 4096 + (a.val * 128 + l.val) / 16
      = ((win0_5.index t (0 : Fin 2) * 512 + 1 * a.val) * 128 + (win0_5.index t (1 : Fin 2) * 128 + 1 * l.val)) / 16
    rw [e10, e11]; omega
  · show (a.val * 128 + l.val) % 16
      = ((win0_5.index t (0 : Fin 2) * 512 + 1 * a.val) * 128 + (win0_5.index t (1 : Fin 2) * 128 + 1 * l.val)) % 16
    rw [e10, e11]; omega

/-! ## The blocks tile the arrays -/

theorem mem_block_output (t : Fin cfg0.N) (i : S131072x128.Idx) :
    i ∈ ((cfg0.win 4).blk t).view.set ↔ ∀ a : Fin 2, win0_4.index t a * S4096x128.size a ≤ (i a).val
      ∧ (i a).val < win0_4.index t a * S4096x128.size a + S4096x128.size a := by
  show i ∈ ((View.whole main_v6_0).slice (win0_4.rect t)).set ↔ _
  rw [View.set_slice_whole, Rect.mem_set_unit]
  exact Iff.rfl

theorem mem_block_packed (t : Fin cfg0.N) (i : S16384x128.Idx) :
    i ∈ ((cfg0.win 5).blk t).view.set ↔ ∀ a : Fin 2, win0_5.index t a * S512x128.size a ≤ (i a).val
      ∧ (i a).val < win0_5.index t a * S512x128.size a + S512x128.size a := by
  show i ∈ ((View.whole main_v6_1).slice (win0_5.rect t)).set ↔ _
  rw [View.set_slice_whole, Rect.mem_set_unit]
  exact Iff.rfl

/-- Row `R` of the output lies in the block of point `R / 4096`. -/
theorem cover_output (i : S131072x128.Idx) :
    ∃ t : Fin cfg0.N, (cfg0.win 4).flush t = true ∧ i ∈ ((cfg0.win 4).blk t).view.set := by
  have hi0 : (i 0).val < 131072 := (i 0).isLt
  have hi1 : (i 1).val < 128 := (i 1).isLt
  have hlt : (i 0).val / 4096 < cfg0.N := Nat.lt_of_lt_of_eq (by omega : (i 0).val / 4096 < 32) N_0.symm
  obtain ⟨-, -, -, -, -, -, -, -, e8, e9, -⟩ := idx_facts ⟨(i 0).val / 4096, hlt⟩
  have e8' : win0_4.index ⟨(i 0).val / 4096, hlt⟩ (0 : Fin 2) = (i 0).val / 4096 := e8
  refine ⟨⟨(i 0).val / 4096, hlt⟩, flush0_4 _, ?_⟩
  rw [mem_block_output]
  intro a
  match a with
  | ⟨0, _⟩ =>
    show win0_4.index ⟨(i 0).val / 4096, hlt⟩ (0 : Fin 2) * 4096 ≤ (i 0).val
      ∧ (i 0).val < win0_4.index ⟨(i 0).val / 4096, hlt⟩ (0 : Fin 2) * 4096 + 4096
    rw [e8']; omega
  | ⟨1, _⟩ =>
    show win0_4.index ⟨(i 0).val / 4096, hlt⟩ (1 : Fin 2) * 128 ≤ (i 1).val
      ∧ (i 1).val < win0_4.index ⟨(i 0).val / 4096, hlt⟩ (1 : Fin 2) * 128 + 128
    rw [e9]; omega

/-- Line `a` of the packed weights lies in the block of point `a / 512`. -/
theorem cover_packed (i : S16384x128.Idx) :
    ∃ t : Fin cfg0.N, (cfg0.win 5).flush t = true ∧ i ∈ ((cfg0.win 5).blk t).view.set := by
  have hi0 : (i 0).val < 16384 := (i 0).isLt
  have hi1 : (i 1).val < 128 := (i 1).isLt
  have hlt : (i 0).val / 512 < cfg0.N := Nat.lt_of_lt_of_eq (by omega : (i 0).val / 512 < 32) N_0.symm
  obtain ⟨-, -, -, -, -, -, -, -, -, -, e10, e11⟩ := idx_facts ⟨(i 0).val / 512, hlt⟩
  have e10' : win0_5.index ⟨(i 0).val / 512, hlt⟩ (0 : Fin 2) = (i 0).val / 512 := e10
  refine ⟨⟨(i 0).val / 512, hlt⟩, flush0_5 _, ?_⟩
  rw [mem_block_packed]
  intro a
  match a with
  | ⟨0, _⟩ =>
    show win0_5.index ⟨(i 0).val / 512, hlt⟩ (0 : Fin 2) * 512 ≤ (i 0).val
      ∧ (i 0).val < win0_5.index ⟨(i 0).val / 512, hlt⟩ (0 : Fin 2) * 512 + 512
    rw [e10']; omega
  | ⟨1, _⟩ =>
    show win0_5.index ⟨(i 0).val / 512, hlt⟩ (1 : Fin 2) * 128 ≤ (i 1).val
      ∧ (i 1).val < win0_5.index ⟨(i 0).val / 512, hlt⟩ (1 : Fin 2) * 128 + 128
    rw [e11]; omega

/-! ## The arrays after the last point -/

theorem final_output (c : Dev nD) :
    (dats m 0 c).arrAt 4 cfg0.N = outputArray (V m c main_v0) (V m c main_v4) (V m c main_arg2) (V m c main_v5) :=
  (dats m 0 c).arrAt_eq_of_cover 4 _ (fun t _ => flushed_output m c t) cover_output

theorem final_packed (c : Dev nD) :
    (dats m 0 c).arrAt 5 cfg0.N = packedWeights (V m c main_v0) (V m c main_v4) :=
  (dats m 0 c).arrAt_eq_of_cover 5 _ (fun t _ => flushed_packed m c t) cover_packed

end Cert.KernelIdeal.Arrays

end
-- ==== Proof.HostSides.lean ====
/-
  The host operations around the region.

  Before the region the host flattens the features to 131072 rows, forms the keys `∑ d, C k d · Kw p d`, folds the
  query projection and the keys into the 512 × 16 score matrix `W q k = ∑ p, Q p q · keys k p` (two transposes and a
  product), and transposes the output projection.  After the region it reshapes the 131072 × 128 output to
  16 × 8192 × 128 and the packed 16384 × 128 weights to 131072 × 16 and then 16 × 8192 × 16: position `(b, n)` is flat
  row `8192 b + n`, and its weight for code `k` sits at flat offset `16 (8192 b + n) + k` of the packed array.
-/
import proofs.«111480_j85693187490397_2_alg».proof.Proof.KernelArrays
import Idealize.ShloMosaic.Lib.StableHlo.Run
import Idealize.ShloMosaic.Lib.ValueLayout

noncomputable section

namespace Cert.KernelIdeal.HostSides

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Arrays Cert.SoftCodebook

/-! ## The two host products, entry by entry -/

theorem codes_by_keymatrix_row (i : S16x128.Idx) (q : dot_S16x128_S128x128_S16x128_1_1_0_0_n_n.contr.Idx) : (dot_S16x128_S128x128_S16x128_1_1_0_0_n_n.lhsIdx i q 0).val = (i 0).val := by
  unfold DotDims.lhsIdx
  rw [dif_neg (show ¬(0 : Fin S16x128.rank) ∈ dot_S16x128_S128x128_S16x128_1_1_0_0_n_n.lhsBatch by decide), dif_pos (show (0 : Fin S16x128.rank) ∈ dot_S16x128_S128x128_S16x128_1_1_0_0_n_n.lhsNonContracting by decide)]
  rfl
theorem codes_by_keymatrix_col (i : S16x128.Idx) (q : dot_S16x128_S128x128_S16x128_1_1_0_0_n_n.contr.Idx) : (dot_S16x128_S128x128_S16x128_1_1_0_0_n_n.rhsIdx i q 0).val = (i 1).val := by
  unfold DotDims.rhsIdx
  rw [dif_neg (show ¬(0 : Fin S128x128.rank) ∈ dot_S16x128_S128x128_S16x128_1_1_0_0_n_n.rhsBatch by decide), dif_pos (show (0 : Fin S128x128.rank) ∈ dot_S16x128_S128x128_S16x128_1_1_0_0_n_n.rhsNonContracting by decide)]
  rfl
/-- The keys: code vector `r` against row `c` of the key matrix. -/
theorem codes_by_keymatrix (l : FVec Ideal S16x128 .f32) (g : FVec Ideal S128x128 .f32) (r : Fin 16) (c : Fin 128) :
    Host.dotGeneral (F := Ideal) dot_S16x128_S128x128_S16x128_1_1_0_0_n_n none l g (ix2 r c) = ∑ q : Fin 128, l (ix2 r q) * g (ix2 c q) := by
  simp only [Host.dotGeneral]
  rw [Ideal.dotGeneral_apply, ← Equiv.sum_comp (ValueIdx.contrEquiv1 dot_S16x128_S128x128_S16x128_1_1_0_0_n_n 128 rfl rfl).symm]
  refine Finset.sum_congr rfl fun q _ => ?_
  have hq := ValueIdx.contrEquiv1_symm_val dot_S16x128_S128x128_S16x128_1_1_0_0_n_n 128 rfl rfl q
  have el : dot_S16x128_S128x128_S16x128_1_1_0_0_n_n.lhsIdx (ix2 r c) ((ValueIdx.contrEquiv1 dot_S16x128_S128x128_S16x128_1_1_0_0_n_n 128 rfl rfl).symm q) = ix2 r q := funext fun a => Fin.ext (by
    match a with
    | ⟨0, _⟩ => exact codes_by_keymatrix_row _ _
    | ⟨1, _⟩ => exact (dot_S16x128_S128x128_S16x128_1_1_0_0_n_n.lhsIdx_val_of_single rfl _ _).trans hq)
  have er : dot_S16x128_S128x128_S16x128_1_1_0_0_n_n.rhsIdx (ix2 r c) ((ValueIdx.contrEquiv1 dot_S16x128_S128x128_S16x128_1_1_0_0_n_n 128 rfl rfl).symm q) = ix2 c q := funext fun a => Fin.ext (by
    match a with
    | ⟨1, _⟩ => exact (dot_S16x128_S128x128_S16x128_1_1_0_0_n_n.rhsIdx_val_of_single rfl _ _).trans hq
    | ⟨0, _⟩ => exact codes_by_keymatrix_col _ _)
  rw [el, er]

theorem queries_by_keys_row (i : S512x16.Idx) (q : dot_S512x128_S128x16_S512x16_1_0_0_1_n_n.contr.Idx) : (dot_S512x128_S128x16_S512x16_1_0_0_1_n_n.lhsIdx i q 0).val = (i 0).val := by
  unfold DotDims.lhsIdx
  rw [dif_neg (show ¬(0 : Fin S512x128.rank) ∈ dot_S512x128_S128x16_S512x16_1_0_0_1_n_n.lhsBatch by decide), dif_pos (show (0 : Fin S512x128.rank) ∈ dot_S512x128_S128x16_S512x16_1_0_0_1_n_n.lhsNonContracting by decide)]
  rfl
theorem queries_by_keys_col (i : S512x16.Idx) (q : dot_S512x128_S128x16_S512x16_1_0_0_1_n_n.contr.Idx) : (dot_S512x128_S128x16_S512x16_1_0_0_1_n_n.rhsIdx i q 1).val = (i 1).val := by
  unfold DotDims.rhsIdx
  rw [dif_neg (show ¬(1 : Fin S128x16.rank) ∈ dot_S512x128_S128x16_S512x16_1_0_0_1_n_n.rhsBatch by decide), dif_pos (show (1 : Fin S128x16.rank) ∈ dot_S512x128_S128x16_S512x16_1_0_0_1_n_n.rhsNonContracting by decide)]
  rfl
/-- The folded score matrix: row `r` of the transposed query projection against column `c` of the transposed keys. -/
theorem queries_by_keys (l : FVec Ideal S512x128 .f32) (g : FVec Ideal S128x16 .f32) (r : Fin 512) (c : Fin 16) :
    Host.dotGeneral (F := Ideal) dot_S512x128_S128x16_S512x16_1_0_0_1_n_n none l g (ix2 r c) = ∑ q : Fin 128, l (ix2 r q) * g (ix2 q c) := by
  simp only [Host.dotGeneral]
  rw [Ideal.dotGeneral_apply, ← Equiv.sum_comp (ValueIdx.contrEquiv1 dot_S512x128_S128x16_S512x16_1_0_0_1_n_n 128 rfl rfl).symm]
  refine Finset.sum_congr rfl fun q _ => ?_
  have hq := ValueIdx.contrEquiv1_symm_val dot_S512x128_S128x16_S512x16_1_0_0_1_n_n 128 rfl rfl q
  have el : dot_S512x128_S128x16_S512x16_1_0_0_1_n_n.lhsIdx (ix2 r c) ((ValueIdx.contrEquiv1 dot_S512x128_S128x16_S512x16_1_0_0_1_n_n 128 rfl rfl).symm q) = ix2 r q := funext fun a => Fin.ext (by
    match a with
    | ⟨0, _⟩ => exact queries_by_keys_row _ _
    | ⟨1, _⟩ => exact (dot_S512x128_S128x16_S512x16_1_0_0_1_n_n.lhsIdx_val_of_single rfl _ _).trans hq)
  have er : dot_S512x128_S128x16_S512x16_1_0_0_1_n_n.rhsIdx (ix2 r c) ((ValueIdx.contrEquiv1 dot_S512x128_S128x16_S512x16_1_0_0_1_n_n 128 rfl rfl).symm q) = ix2 q c := funext fun a => Fin.ext (by
    match a with
    | ⟨0, _⟩ => exact (dot_S512x128_S128x16_S512x16_1_0_0_1_n_n.rhsIdx_val_of_single rfl _ _).trans hq
    | ⟨1, _⟩ => exact queries_by_keys_col _ _)
  rw [el, er]

/-! ## The arrays the region finds -/

variable (m : (ℓ : Loc nD τ sig) → Buf (Elt Ideal) ℓ) (ρ : Dev nD → PrngReg)

/-- The five float arguments on core `c`, as launched. -/
abbrev features (c : Dev nD) : FVec Ideal S16x8192x512 .f32 := m ((c.tc : Thread nD τ).loc main_arg0)
abbrev codebook (c : Dev nD) : FVec Ideal S16x128 .f32 := m ((c.tc : Thread nD τ).loc main_arg2)
abbrev queryProj (c : Dev nD) : FVec Ideal S128x512 .f32 := m ((c.tc : Thread nD τ).loc main_arg3)
abbrev keyMatrix (c : Dev nD) : FVec Ideal S128x128 .f32 := m ((c.tc : Thread nD τ).loc main_arg4)
abbrev outProj (c : Dev nD) : FVec Ideal S128x128 .f32 := m ((c.tc : Thread nD τ).loc main_arg5)

/-- The flattened features are the feature argument, reshaped. -/
theorem features_eq (c : Dev nD) :
    (V m c main_v0 : S131072x512.Idx → EReal)
      = shapeCast S131072x512 (features m c) shapeCasts_S16x8192x512_S131072x512 := by
  show StableHlo.after hostOps0 (fun b => m (c, b)) (Proc.devRef .tc main_v0) = _
  after_results
  try rfl

/-- Flat row `8192 b + n` is position `(b, n)`. -/
theorem features_apply (c : Dev nD) (R : Fin 131072) (q : Fin 512) (b : Fin 16) (n : Fin 8192)
    (hR : R.val = b.val * 8192 + n.val) :
    (V m c main_v0 : S131072x512.Idx → EReal) (ix2 R q)
      = features m c (ix3 b n q) := by
  refine (congrFun (features_eq m c) (ix2 R q)).trans ?_
  exact shapeCast_apply _ shapeCasts_S16x8192x512_S131072x512 (ix2 R q) (ix3 b n q) (by
    rw [Shape.rowMajor_val_three, Shape.rowMajor_val_two]
    show (b.val * 8192 + n.val) * 512 + q.val = R.val * 512 + q.val
    rw [hR])

/-- The score matrix as the host forms it. -/
theorem scorematrix_eq (c : Dev nD) :
    (V m c main_v4 : S512x16.Idx → EReal)
      = Host.dotGeneral (F := Ideal) dot_S512x128_S128x16_S512x16_1_0_0_1_n_n none
          (transpose S512x128 [1, 0] (queryProj m c) transposes_S128x512_S512x128_1_0)
          (transpose S128x16 [1, 0] (Host.dotGeneral (F := Ideal) dot_S16x128_S128x128_S16x128_1_1_0_0_n_n none
            (codebook m c) (keyMatrix m c)) transposes_S16x128_S128x16_1_0) := by
  show StableHlo.after hostOps0 (fun b => m (c, b)) (Proc.devRef .tc main_v4) = _
  after_results
  try rfl

/-- Its entry `(q, k)` is `∑ p, Q p q · keys k p`. -/
theorem scorematrix_apply (c : Dev nD) (q : Fin 512) (k : Fin 16) :
    (V m c main_v4 : S512x16.Idx → EReal) (ix2 q k)
      = combined (fun p q => queryProj m c (ix2 p q))
          (keysOf (fun k d => codebook m c (ix2 k d))
            (fun p d => keyMatrix m c (ix2 p d))) q k := by
  refine (congrFun (scorematrix_eq m c) (ix2 q k)).trans ?_
  refine (queries_by_keys _ _ q k).trans ?_
  unfold combined keysOf
  refine Finset.sum_congr rfl fun p _ => ?_
  rw [transpose_ix2_apply, transpose_ix2_apply, codes_by_keymatrix]

/-- The projection the region finds is the argument's transpose. -/
theorem projection_eq (c : Dev nD) :
    (V m c main_v5 : S128x128.Idx → EReal)
      = transpose S128x128 [1, 0] (outProj m c) transposes_S128x128_S128x128_1_0 := by
  show StableHlo.after hostOps0 (fun b => m (c, b)) (Proc.devRef .tc main_v5) = _
  after_results
  try rfl

theorem projection_apply (c : Dev nD) (d p : Fin 128) :
    (V m c main_v5 : S128x128.Idx → EReal) (ix2 d p)
      = outProj m c (ix2 p d) := by
  refine (congrFun (projection_eq m c) (ix2 d p)).trans ?_
  exact transpose_ix2_apply _ _ d p

/-! ## The results the host forms after the region -/

/-- The first result is the region's output array, reshaped. -/
theorem result_output (c : Dev nD) :
    (Pipeline.afterTail₀ cfgs (dats m) 0 (V0 m) [hostOps1] c main_v7 : S16x8192x128.Idx → EReal)
      = shapeCast S16x8192x128 ((dats m 0 c).arrAt 4 cfg0.N : FVec Ideal S131072x128 .f32) shapeCasts_S131072x128_S16x8192x128 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v6_0)
      = (dats m 0 c).arrAt 4 cfg0.N :=
    Pipeline.withArrays_arr spec0 launch0.win.arr_inj c (V0 m c) (fun w => (dats m 0 c).arrAt w cfg0.N) 4
  rw [e]
  rfl

/-- The second result is the region's packed weights, reshaped twice. -/
theorem result_weights (c : Dev nD) :
    (Pipeline.afterTail₀ cfgs (dats m) 0 (V0 m) [hostOps1] c main_v9 : S16x8192x16.Idx → EReal)
      = shapeCast S16x8192x16 (shapeCast S131072x16 ((dats m 0 c).arrAt 5 cfg0.N : FVec Ideal S16384x128 .f32)
          shapeCasts_S16384x128_S131072x16) shapeCasts_S131072x16_S16x8192x16 := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v6_1)
      = (dats m 0 c).arrAt 5 cfg0.N :=
    Pipeline.withArrays_arr spec0 launch0.win.arr_inj c (V0 m c) (fun w => (dats m 0 c).arrAt w cfg0.N) 5
  rw [e]
  rfl

/-- What the region finds, row `8192 b + n`, in terms of the arguments. -/
theorem found_features (c : Dev nD) (b : Fin 16) (n : Fin 8192) (R : Fin 131072) (hR : R.val = b.val * 8192 + n.val) :
    (fun q => (V m c main_v0 : S131072x512.Idx → EReal) (ix2 R q)) = fun q => features m c (ix3 b n q) :=
  funext fun q => features_apply m c R q b n hR

theorem found_scorematrix (c : Dev nD) :
    (fun q k => (V m c main_v4 : S512x16.Idx → EReal) (ix2 q k))
      = combined (fun p q => queryProj m c (ix2 p q))
          (keysOf (fun k d => codebook m c (ix2 k d)) (fun p d => keyMatrix m c (ix2 p d))) :=
  funext fun q => funext fun k => scorematrix_apply m c q k

/-- The weights row of flat row `8192 b + n`, in terms of the arguments. -/
theorem rowWeights_found (c : Dev nD) (b : Fin 16) (n : Fin 8192) (R : Fin 131072) (hR : R.val = b.val * 8192 + n.val) :
    rowWeights (V m c main_v0) (V m c main_v4) R
      = soft (scoreDirect (fun q => features m c (ix3 b n q))
          (combined (fun p q => queryProj m c (ix2 p q))
            (keysOf (fun k d => codebook m c (ix2 k d)) (fun p d => keyMatrix m c (ix2 p d))))) := by
  unfold rowWeights
  rw [found_features m c b n R hR, found_scorematrix m c]

/-- The first result at position `(b, n)`. -/
theorem output_at (c : Dev nD) (b : Fin 16) (n : Fin 8192) (p : Fin 128) :
    (Pipeline.afterTail₀ cfgs (dats m) 0 (V0 m) [hostOps1] c main_v7 : S16x8192x128.Idx → EReal) (ix3 b n p)
      = project (mix (soft (scoreDirect (fun q => features m c (ix3 b n q))
            (combined (fun p q => queryProj m c (ix2 p q))
              (keysOf (fun k d => codebook m c (ix2 k d)) (fun p d => keyMatrix m c (ix2 p d))))))
          (fun k d => codebook m c (ix2 k d))) (fun p d => outProj m c (ix2 p d)) p := by
  have hb : b.val < 16 := b.isLt
  have hn : n.val < 8192 := n.isLt
  refine (congrFun (result_output m c) (ix3 b n p)).trans ?_
  refine (shapeCast_apply _ shapeCasts_S131072x128_S16x8192x128 (ix3 b n p)
    (ix2 (⟨b.val * 8192 + n.val, by omega⟩ : Fin 131072) p) (by
      rw [Shape.rowMajor_val_two, Shape.rowMajor_val_three]; rfl)).trans ?_
  refine (congrFun (final_output m c) _).trans ?_
  show rowOutput _ _ _ _ (⟨b.val * 8192 + n.val, by omega⟩ : Fin 131072) p = _
  unfold rowOutput
  rw [rowWeights_found m c b n _ rfl]
  have h2 : (fun k d => (V m c main_arg2 : S16x128.Idx → EReal) (ix2 k d)) = fun k d => codebook m c (ix2 k d) := by
    rw [V_main_arg2]
  have h3 : (fun p d => (V m c main_v5 : S128x128.Idx → EReal) (ix2 d p)) = fun p d => outProj m c (ix2 p d) :=
    funext fun p => funext fun d => projection_apply m c d p
  rw [h2, h3]

/-- The second result at position `(b, n)`: offset `16 (8192 b + n) + k` of the packed array, unpacked. -/
theorem weights_at (c : Dev nD) (b : Fin 16) (n : Fin 8192) (k : Fin 16) :
    (Pipeline.afterTail₀ cfgs (dats m) 0 (V0 m) [hostOps1] c main_v9 : S16x8192x16.Idx → EReal) (ix3 b n k)
      = soft (scoreDirect (fun q => features m c (ix3 b n q))
          (combined (fun p q => queryProj m c (ix2 p q))
            (keysOf (fun k d => codebook m c (ix2 k d)) (fun p d => keyMatrix m c (ix2 p d))))) k := by
  have hb : b.val < 16 := b.isLt
  have hn : n.val < 8192 := n.isLt
  have hk : k.val < 16 := k.isLt
  refine (congrFun (result_weights m c) (ix3 b n k)).trans ?_
  refine (shapeCast_apply _ shapeCasts_S131072x16_S16x8192x16 (ix3 b n k)
    (ix2 (⟨b.val * 8192 + n.val, by omega⟩ : Fin 131072) k) (by
      rw [Shape.rowMajor_val_two, Shape.rowMajor_val_three]; rfl)).trans ?_
  refine (shapeCast_apply _ shapeCasts_S16384x128_S131072x16 (ix2 (⟨b.val * 8192 + n.val, by omega⟩ : Fin 131072) k)
    (ix2 (⟨((b.val * 8192 + n.val) * 16 + k.val) / 128, by omega⟩ : Fin 16384)
      (⟨((b.val * 8192 + n.val) * 16 + k.val) % 128, Nat.mod_lt _ (by decide)⟩ : Fin 128)) (by
      rw [Shape.rowMajor_val_two, Shape.rowMajor_val_two]
      show ((b.val * 8192 + n.val) * 16 + k.val) / 128 * 128 + ((b.val * 8192 + n.val) * 16 + k.val) % 128
        = (b.val * 8192 + n.val) * 16 + k.val
      omega)).trans ?_
  refine (congrFun (final_packed m c) _).trans ?_
  refine (congrArg₂ (rowWeights (V m c main_v0) (V m c main_v4))
    (Fin.ext (?_ : _ = (⟨b.val * 8192 + n.val, by omega⟩ : Fin 131072).val)) (Fin.ext (?_ : _ = k.val))).trans ?_
  · show (((b.val * 8192 + n.val) * 16 + k.val) / 128 * 128 + ((b.val * 8192 + n.val) * 16 + k.val) % 128) / 16
      = b.val * 8192 + n.val
    omega
  · show (((b.val * 8192 + n.val) * 16 + k.val) / 128 * 128 + ((b.val * 8192 + n.val) * 16 + k.val) % 128) % 16 = k.val
    omega
  rw [rowWeights_found m c b n _ rfl]

/-! ## The run -/

/-- Every execution ends with the two results as the host's tail leaves them, and the arguments as launched. -/
theorem run : θ_run defs (onTc (τ := τ) (main (F := Ideal))) ⟨m, fun _ => 0, ρ⟩ (fun r => ∀ c : Dev nD,
      r.2.mem ((c.tc : Thread nD τ).loc main_v7) = Pipeline.afterTail₀ cfgs (dats m) 0 (V0 m) [hostOps1] c main_v7
      ∧ r.2.mem ((c.tc : Thread nD τ).loc main_v9) = Pipeline.afterTail₀ cfgs (dats m) 0 (V0 m) [hostOps1] c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v7 (Pipeline.mem_restRefs_of main_v7 (by decide) (by decide)),
      (h c).2 main_v9 (Pipeline.mem_restRefs_of main_v9 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.HostSides

end
-- ==== Proof.ReferenceRows.lean ====
/-
  The reference, position by position.

  At position `(b, n)` the reference projects the feature row, scores it against every key, takes the softmax of the
  16 scores, mixes the code vectors and projects the mixture.  Each of its stages read at an index is the matching
  plain function of `SoftCodebook`, of the feature row at `(b, n)` and the four parameter matrices.
-/
import proofs.«111480_j85693187490397_2_alg».proof.Proof.Gen.ReferenceIdeal.Read
import proofs.«111480_j85693187490397_2_alg».proof.Proof.SoftCodebook

noncomputable section

namespace Cert.ReferenceIdeal.Rows

open Idealize.ShloMosaic Idealize.ShloMosaic.ValueIdx Cert.ReferenceIdeal Cert.ReferenceIdeal.Gen Cert.ReferenceIdeal.Read Cert.SoftCodebook

variable (x0 : (⟨S16x8192x512, .f32⟩ : BufTy).Contents (Elt Ideal)) (x2 : (⟨S16x128, .f32⟩ : BufTy).Contents (Elt Ideal))
  (x3 : (⟨S128x512, .f32⟩ : BufTy).Contents (Elt Ideal)) (x4 x5 : (⟨S128x128, .f32⟩ : BufTy).Contents (Elt Ideal))

/-- The scaled scores at `(b, n)`: the projected row against each key. -/
theorem scores_apply (b : Fin 16) (n : Fin 8192) (k : Fin 16) :
    val_main_v4 (F := Ideal) x0 x2 x3 x4 (ix3 b n k)
      = scoreVia (fun m => x0 (ix3 b n m)) (fun p m => x3 (ix2 p m))
          (keysOf (fun k d => x2 (ix2 k d)) (fun p d => x4 (ix2 p d))) k := by
  rw [val_main_v4_apply, val_main_v2_apply, val_main_v3_apply, val_main_cst_apply]
  unfold scoreVia keysOf
  show (∑ p : Fin 128, _) * scale = _
  refine congrArg (· * scale) (Finset.sum_congr rfl fun p _ => ?_)
  rw [val_main_v0_apply, val_main_v1_apply]
  refine congrArg₂ (· * ·) (Finset.sum_congr rfl fun m _ => congrArg₂ (· * ·) (congrArg x0 ?_) (congrArg x3 ?_))
    (Finset.sum_congr rfl fun d _ => congrArg₂ (· * ·) (congrArg x2 ?_) (congrArg x4 ?_))
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl | ⟨1, _⟩ => rfl)

/-- The weights at `(b, n)` are the softmax of the 16 scores there. -/
theorem weights_apply (b : Fin 16) (n : Fin 8192) (k : Fin 16) :
    val_main_v15 (F := Ideal) x0 x2 x3 x4 (ix3 b n k)
      = soft (fun j => val_main_v4 (F := Ideal) x0 x2 x3 x4 (ix3 b n j)) k := by
  have hmax : ∀ j : Fin 16, val_main_v9 (F := Ideal) x0 x2 x3 x4 (ix3 b n j)
      = rowMax (fun j => val_main_v4 (F := Ideal) x0 x2 x3 x4 (ix3 b n j)) := fun j => by
    rw [val_main_v9_apply, val_main_v8_apply, val_main_v7_apply, val_main_v6_apply, val_main_cst_1_apply]
    unfold rowMax val_main_v5
    show max bottom _ = _
    refine congrArg (max bottom) ?_
    refine (Host.reduce_eq_fold_single FloatOps.maximumf _ _ reducesTo_S16x8192x16_S16x8192_d2
      (by decide : S16x8192x16.Reduces [2] S16x8192) h_S_ _).trans ?_
    show (Finset.univ : Finset (Fin 16)).fold max bottom (val_main_v4 (F := Ideal) x0 x2 x3 x4 ∘ _) = _
    refine congrArg ((Finset.univ : Finset (Fin 16)).fold max bottom) (funext fun j' =>
      congrArg (val_main_v4 (F := Ideal) x0 x2 x3 x4) (funext fun a => Fin.ext ?_))
    match a with
    | ⟨0, _⟩ => rfl
    | ⟨1, _⟩ => rfl
    | ⟨2, _⟩ => rfl
  have hexp : ∀ j : Fin 16, val_main_v11 (F := Ideal) x0 x2 x3 x4 (ix3 b n j)
      = Ideal.exp (val_main_v4 (F := Ideal) x0 x2 x3 x4 (ix3 b n j) - rowMax (fun j => val_main_v4 (F := Ideal) x0 x2 x3 x4 (ix3 b n j))) := fun j => by
    rw [val_main_v11_apply, val_main_v10_apply, hmax]; rfl
  rw [val_main_v15_apply, val_main_v14_apply, val_main_v13_apply, val_main_v12_apply, val_main_cst_2_apply, hexp]
  unfold soft
  show Ideal.div _ (Ideal.ofBits .f32 0x00000000#32 + _) = _
  rw [Ideal.ofBits_zero_f32, zero_add]
  refine congrArg (Ideal.div _) (Finset.sum_congr rfl fun j _ => ?_)
  refine (congrArg (val_main_v11 (F := Ideal) x0 x2 x3 x4) (funext fun a => Fin.ext ?_)).trans (hexp j)
  match a with
  | ⟨0, _⟩ => rfl
  | ⟨1, _⟩ => rfl
  | ⟨2, _⟩ => rfl

/-- The output at `(b, n)`: the mixture of code vectors under the weights there, projected. -/
theorem output_apply (b : Fin 16) (n : Fin 8192) (p : Fin 128) :
    val_main_v17 (F := Ideal) x0 x2 x3 x4 x5 (ix3 b n p)
      = project (mix (fun k => val_main_v15 (F := Ideal) x0 x2 x3 x4 (ix3 b n k)) (fun k d => x2 (ix2 k d)))
          (fun p d => x5 (ix2 p d)) p := by
  rw [val_main_v17_apply]
  unfold project mix
  refine Finset.sum_congr rfl fun d _ => ?_
  rw [val_main_v16_apply]
  refine congrArg₂ (· * ·) (Finset.sum_congr rfl fun k _ => congrArg₂ (· * ·)
    (congrArg (val_main_v15 (F := Ideal) x0 x2 x3 x4) ?_) (congrArg x2 ?_)) (congrArg x5 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl | ⟨1, _⟩ => rfl)

end Cert.ReferenceIdeal.Rows

end
-- ==== Proof.FiniteEntries.lean ====
/-
  The precondition read back: every entry of the five float arguments is a real number.

  The precondition is the conjunction, over the five arrays, of "every entry's absolute value is below +∞".  An
  extended real whose absolute value `max x (−x)` is below `⊤` is neither `⊤` nor `⊥`.
-/
import proofs.«111480_j85693187490397_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Reals

open Idealize.ShloMosaic Cert.Pre_finite_inputs

instance : Subsingleton S_.Idx := ⟨fun a b => funext fun d => d.elim0⟩

/-- An extended real with `|x| < +∞` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exfalso; simp [Ideal.cmp] at h
  | coe r => exact ⟨r, rfl⟩
  | top => exfalso; simp [Ideal.cmp] at h

/-- Under the precondition every entry of the five float arguments is real. -/
theorem all_real (a0 : FVec Ideal S16x8192x512 .f32) (a1 : IVec S16x8192 1) (a2 : FVec Ideal S16x128 .f32)
    (a3 : FVec Ideal S128x512 .f32) (a4 a5 : FVec Ideal S128x128 .f32)
    (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have h' := congrFun h ValueIdx.ix0
  dsimp only [fn, fn_part1] at h'
  obtain ⟨h', e5⟩ := IntOp.andi_eq_one.1 h'
  obtain ⟨h', e4⟩ := IntOp.andi_eq_one.1 h'
  obtain ⟨h', e3⟩ := IntOp.andi_eq_one.1 h'
  obtain ⟨e0, e2⟩ := IntOp.andi_eq_one.1 h'
  exact ⟨fun i => real_of_abs_lt _ (Host.reduce_andi_all _ _ _ _ _ e0 i),
    fun i => real_of_abs_lt _ (Host.reduce_andi_all _ _ _ _ _ e2 i),
    fun i => real_of_abs_lt _ (Host.reduce_andi_all _ _ _ _ _ e3 i),
    fun i => real_of_abs_lt _ (Host.reduce_andi_all _ _ _ _ _ e4 i),
    fun i => real_of_abs_lt _ (Host.reduce_andi_all _ _ _ _ _ e5 i)⟩

end Cert.Pre_finite_inputs.Reals

end
-- ==== Proof.Agreement.lean ====
/-
  The idealized kernel and the idealized reference compute the same two arrays.

  At position `(b, n)` the kernel's results are the softmax weights of `scoreDirect x W` and the projected mixture
  under them, with `x` the feature row at `(b, n)` and `W` the query projection folded with the keys; the reference's
  are the same functions of `scoreVia x Q keys`.  Under the precondition every entry of the arguments is real, the keys
  (finite sums of products of reals) are real, and the two arrangements of the scores agree by distributivity.
-/
import proofs.«111480_j85693187490397_2_alg».proof.Defs
import proofs.«111480_j85693187490397_2_alg».proof.Proof.HostSides
import proofs.«111480_j85693187490397_2_alg».proof.Proof.ReferenceRows
import proofs.«111480_j85693187490397_2_alg».proof.Proof.FiniteEntries

noncomputable section

namespace Cert.Agreement

open Idealize.ShloMosaic Idealize.ShloMosaic.TcCoe Idealize.SL.Sem Idealize.ShloMosaic.ValueIdx
open Cert.SoftCodebook Cert.KernelIdeal.HostSides

variable (m : (ℓ : Loc Cert.KernelIdeal.nD Cert.KernelIdeal.τ Cert.KernelIdeal.sig) → Buf (Elt Ideal) ℓ)

/-- Under the precondition the two arrangements of the scores at `(b, n)` are one function. -/
theorem scores_agree (hpre : Cert.Pre_KernelIdeal m) (c : Dev Cert.KernelIdeal.nD) (b : Fin 16) (n : Fin 8192) :
    scoreDirect (fun q => features m c (ix3 b n q))
        (combined (fun p q => queryProj m c (ix2 p q))
          (keysOf (fun k d => codebook m c (ix2 k d)) (fun p d => keyMatrix m c (ix2 p d))))
      = scoreVia (fun q => features m c (ix3 b n q)) (fun p q => queryProj m c (ix2 p q))
          (keysOf (fun k d => codebook m c (ix2 k d)) (fun p d => keyMatrix m c (ix2 p d))) := by
  obtain ⟨h0, h2, h3, h4, -⟩ := Cert.Pre_finite_inputs.Reals.all_real _ _ _ _ _ _ (hpre c)
  exact funext fun k => score_arrangements _ _ _ (fun q => h0 _) (fun p q => h3 _)
    (keysOf_real _ _ (fun k d => h2 _) (fun p d => h4 _)) k

/-- The kernel's first result is the reference's. -/
theorem output_agrees (hpre : Cert.Pre_KernelIdeal m) (c : Dev Cert.KernelIdeal.nD) :
    Pipeline.afterTail₀ Cert.KernelIdeal.cfgs (Cert.KernelIdeal.Gen.dats m) 0 (Cert.KernelIdeal.Gen.V0 m)
        [Cert.KernelIdeal.Gen.hostOps1] c Cert.KernelIdeal.main_v7
      = Cert.ReferenceIdeal.Read.val_main_v17 (F := Ideal) (features m c) (codebook m c) (queryProj m c)
          (keyMatrix m c) (outProj m c) := by
  refine funext fun (i : Cert.KernelIdeal.S16x8192x128.Idx) => ?_
  obtain ⟨b, n, p, rfl⟩ : ∃ (b : Fin 16) (n : Fin 8192) (p : Fin 128), i = ix3 b n p := ⟨i 0, i 1, i 2, eq_ix3 i⟩
  refine (output_at m c b n p).trans ?_
  rw [Cert.ReferenceIdeal.Rows.output_apply]
  simp only [Cert.ReferenceIdeal.Rows.weights_apply, Cert.ReferenceIdeal.Rows.scores_apply]
  rw [scores_agree m hpre c b n]

/-- The kernel's second result is the reference's. -/
theorem weights_agree (hpre : Cert.Pre_KernelIdeal m) (c : Dev Cert.KernelIdeal.nD) :
    Pipeline.afterTail₀ Cert.KernelIdeal.cfgs (Cert.KernelIdeal.Gen.dats m) 0 (Cert.KernelIdeal.Gen.V0 m)
        [Cert.KernelIdeal.Gen.hostOps1] c Cert.KernelIdeal.main_v9
      = Cert.ReferenceIdeal.Read.val_main_v15 (F := Ideal) (features m c) (codebook m c) (queryProj m c)
          (keyMatrix m c) := by
  refine funext fun (i : Cert.KernelIdeal.S16x8192x16.Idx) => ?_
  obtain ⟨b, n, k, rfl⟩ : ∃ (b : Fin 16) (n : Fin 8192) (k : Fin 16), i = ix3 b n k := ⟨i 0, i 1, i 2, eq_ix3 i⟩
  refine (weights_at m c b n k).trans ?_
  rw [Cert.ReferenceIdeal.Rows.weights_apply]
  simp only [Cert.ReferenceIdeal.Rows.scores_apply]
  rw [scores_agree m hpre c b n]

end Cert.Agreement

end
-- ==== Proof.lean ====
/-
  The certificate of a soft codebook assignment: a feature row is scored against 16 code vectors, the scores pass
  through a softmax, the weights mix the code vectors and the mixture is projected.  The kernel folds the query
  projection and the keys into one 512 × 16 matrix on the host and works on blocks of 4096 flattened rows; the
  reference projects, scores, and mixes position by position.  At the extended reals the two differ only in where
  a factor stands relative to a sum, which is distributivity, valid because the precondition makes every entry real.

  The three frames are the generated ones (the reference's is its run with the results dropped), nothing was
  rewritten by the idealization, and the agreement of the results is `Cert.Agreement`.
-/
import proofs.«111480_j85693187490397_2_alg».proof.Defs
import proofs.«111480_j85693187490397_2_alg».proof.Proof.Gen.Kernel
import proofs.«111480_j85693187490397_2_alg».proof.Proof.Gen.Kernel.Skeleton
import proofs.«111480_j85693187490397_2_alg».proof.Proof.Gen.Kernel.Launch
import proofs.«111480_j85693187490397_2_alg».proof.Proof.Gen.Kernel.Points
import proofs.«111480_j85693187490397_2_alg».proof.Proof.Gen.Kernel.Frame
import proofs.«111480_j85693187490397_2_alg».proof.Proof.Gen.KernelIdeal
import proofs.«111480_j85693187490397_2_alg».proof.Proof.Gen.KernelIdeal.Skeleton
import proofs.«111480_j85693187490397_2_alg».proof.Proof.Gen.KernelIdeal.Launch
import proofs.«111480_j85693187490397_2_alg».proof.Proof.Gen.KernelIdeal.Points
import proofs.«111480_j85693187490397_2_alg».proof.Proof.Gen.KernelIdeal.Frame
import proofs.«111480_j85693187490397_2_alg».proof.Proof.Gen.ReferenceIdeal
import proofs.«111480_j85693187490397_2_alg».proof.Proof.Gen.Pre_finite_inputs
import proofs.«111480_j85693187490397_2_alg».proof.Proof.Gen.ReferenceIdeal.Run
import proofs.«111480_j85693187490397_2_alg».proof.Proof.Gen.ReferenceIdeal.Read
import proofs.«111480_j85693187490397_2_alg».proof.Proof.Agreement
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- Both programs end with the reference's two stages of the kernel's arguments: the kernel by `Cert.Agreement`,
    the reference by its own run, its arguments being the kernel's. -/
theorem algebraic : Cert.algebraic_KernelIdeal_ReferenceIdeal := by
  intro m ρ m' ρ' hpre hagree
  refine ⟨fun c => Cert.ReferenceIdeal.Read.val_main_v17 (F := Ideal) (Cert.KernelIdeal.HostSides.features m c)
      (Cert.KernelIdeal.HostSides.codebook m c) (Cert.KernelIdeal.HostSides.queryProj m c)
      (Cert.KernelIdeal.HostSides.keyMatrix m c) (Cert.KernelIdeal.HostSides.outProj m c),
    fun c => Cert.ReferenceIdeal.Read.val_main_v15 (F := Ideal) (Cert.KernelIdeal.HostSides.features m c)
      (Cert.KernelIdeal.HostSides.codebook m c) (Cert.KernelIdeal.HostSides.queryProj m c)
      (Cert.KernelIdeal.HostSides.keyMatrix m c), ?_, ?_⟩
  · refine (θ_run Cert.KernelIdeal.defs _ _).mono (fun _ h c => ?_) (Cert.KernelIdeal.HostSides.run m ρ)
    exact ⟨(h c).1.trans (Cert.Agreement.output_agrees m hpre c),
      (h c).2.1.trans (Cert.Agreement.weights_agree m hpre c), (h c).2.2⟩
  · refine (θ_run Cert.ReferenceIdeal.defs _ _).mono (fun _ h c => ?_)
      (Cert.ReferenceIdeal.Value.run (F := Ideal) m' ρ')
    obtain ⟨e0, e1, e2, e3, e4, e5⟩ := hagree c
    refine ⟨?_, ?_, (h c).2.2⟩
    · rw [(h c).1, Cert.ReferenceIdeal.Read.val_main_v17_eq, e0, e2, e3, e4, e5]
    · rw [(h c).2.1, Cert.ReferenceIdeal.Read.val_main_v15_eq, e0, e2, e3, e4]

theorem claim : Cert.Claim := ⟨Cert.Kernel.Gen.facts, Cert.KernelIdeal.Gen.facts, Cert.ReferenceIdeal.Gen.facts,
  Cert.Pre_finite_inputs.Gen.facts, frame_kernel, frame_ideal, frame_reference, trivial, algebraic⟩

end Cert.Proof

end
